-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S1024x784 : Shape := ⟨2, ![1024, 784]⟩
abbrev S1024 : Shape := ⟨1, ![1024]⟩
abbrev S10x1024 : Shape := ⟨2, ![10, 1024]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S1024x784 : S_.BroadcastsInDim S1024x784 (![] : Fin 0 → Fin S1024x784.rank)
  reducesTo_S1024x784_S_d0_1 : S1024x784.ReducesTo [0, 1] S_
  bcast_S_S1024 : S_.BroadcastsInDim S1024 (![] : Fin 0 → Fin S1024.rank)
  reducesTo_S1024_S_d0 : S1024.ReducesTo [0] S_
  bcast_S_S10x1024 : S_.BroadcastsInDim S10x1024 (![] : Fin 0 → Fin S10x1024.rank)
  reducesTo_S10x1024_S_d0_1 : S10x1024.ReducesTo [0, 1] S_

variable [Facts]

def fn_part1 {F : FTy → Type} [FloatOps F] (main_arg4 : FVec F S10x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S10x1024 .f32 := Host.absf main_arg4
  let main_cst_6 : FVec F S_ .f32 := constant S_ .f32 0x7F800000#32
  let main_v20 : FVec F S10x1024 .f32 := broadcastInDim S10x1024 ![] bcast_S_S10x1024 main_cst_6
  let main_v21 : IVec S10x1024 1 := cmpf .olt main_v19 main_v20
  let main_c_7 : IVec S_ 1 := constantI S_ 1 1#1
  let main_v22 : IVec S_ 1 := (fun x v => Host.reduce IntOp.andi x v reducesTo_S10x1024_S_d0_1 h_S_) main_v21 main_c_7
  let main_v23 : IVec S_ 1 := andi main_v18 main_v22
  main_v23

def fn {F : FTy → Type} [FloatOps F] (main_arg0 : FVec F S65536x784 .f32) (main_arg1 : FVec F S1024x784 .f32) (main_arg2 : FVec F S1024 .f32) (main_arg3 : FVec F S1024 .f32) (main_arg4 : FVec F S10x1024 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S1024x784 .f32 := Host.absf main_arg1
  let main_cst_0 : FVec F S_ .f32 := constant S_ .f32 0x7F800000#32
  let main_v5 : FVec F S1024x784 .f32 := broadcastInDim S1024x784 ![] bcast_S_S1024x784 main_cst_0
  let main_v6 : IVec S1024x784 1 := cmpf .olt main_v4 main_v5
  let main_c_1 : IVec S_ 1 := constantI S_ 1 1#1
  let main_v7 : IVec S_ 1 := (fun x v => Host.reduce IntOp.andi x v reducesTo_S1024x784_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S65536x784 : Shape := ⟨2, ![65536, 784]⟩
abbrev S1024x784 : Shape := ⟨2, ![1024, 784]⟩
abbrev S1024 : Shape := ⟨1, ![1024]⟩
abbrev S10x1024 : Shape := ⟨2, ![10, 1024]⟩
abbrev S784x1024 : Shape := ⟨2, ![784, 1024]⟩
abbrev S1024x10 : Shape := ⟨2, ![1024, 10]⟩
abbrev S_ : Shape := ⟨0, ![]⟩
abbrev S1024x128 : Shape := ⟨2, ![1024, 128]⟩
abbrev S2x1x1024 : Shape := ⟨3, ![2, 1, 1024]⟩
abbrev S1x1x1024 : Shape := ⟨3, ![1, 1, 1024]⟩
abbrev S1024x1024 : Shape := ⟨2, ![1024, 1024]⟩
abbrev S1x1024 : Shape := ⟨2, ![1, 1024]⟩
abbrev S65536x128 : Shape := ⟨2, ![65536, 128]⟩
abbrev S65536x10 : Shape := ⟨2, ![65536, 10]⟩

abbrev nBuf : Space → Nat
  | .hbm => 42
  | .vmem => 15
  | .smem => 0
  | _ => 0

abbrev bufTy : (tb : Table) → Fin (tcTables nBuf tb) → BufTy
  | .hbm, ⟨0, _⟩ => ⟨S65536x784, .f32⟩
  | .hbm, ⟨1, _⟩ => ⟨S1024x784, .f32⟩
  | .hbm, ⟨2, _⟩ => ⟨S1024, .f32⟩
  | .hbm, ⟨3, _⟩ => ⟨S1024, .f32⟩
  | .hbm, ⟨4, _⟩ => ⟨S10x1024, .f32⟩
  | .hbm, ⟨5, _⟩ => ⟨S1024x784, .f32⟩
  | .hbm, ⟨6, _⟩ => ⟨S784x1024, .f32⟩
  | .hbm, ⟨7, _⟩ => ⟨S10x1024, .f32⟩
  | .hbm, ⟨8, _⟩ => ⟨S10x1024, .bf16⟩
  | .hbm, ⟨9, _⟩ => ⟨S1024x10, .bf16⟩
  | .hbm, ⟨10, _⟩ => ⟨S_, .i32⟩
  | .hbm, ⟨11, _⟩ => ⟨S_, .bf16⟩
  | .hbm, ⟨12, _⟩ => ⟨S1024x128, .bf16⟩
  | .hbm, ⟨13, _⟩ => ⟨S2x1x1024, .f32⟩
  | .hbm, ⟨14, _⟩ => ⟨S2x1x1024, .f32⟩
  | .hbm, ⟨15, _⟩ => ⟨S_, .f32⟩
  | .hbm, ⟨16, _⟩ => ⟨S1024, .f32⟩
  | .hbm, ⟨17, _⟩ => ⟨S_, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1x1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1x1024, .f32⟩
  | .hbm, ⟨40, _⟩ => ⟨S65536x128, .f32⟩
  | .hbm, ⟨41, _⟩ => ⟨S65536x10, .f32⟩
  | .local _ .vmem, ⟨0, _⟩ => ⟨S1024x784, .f32⟩
  | .local _ .vmem, ⟨1, _⟩ => ⟨S1024x784, .f32⟩
  | .local _ .vmem, ⟨2, _⟩ => ⟨S784x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x784, .f32⟩
  | .local _ .vmem, ⟨8, _⟩ => ⟨S1024x784, .f32⟩
  | .local _ .vmem, ⟨9, _⟩ => ⟨S784x1024, .f32⟩
  | .local _ .vmem, ⟨10, _⟩ => ⟨S1x1024, .f32⟩
  | .local _ .vmem, ⟨11, _⟩ => ⟨S1x1024, .f32⟩
  | .local _ .vmem, ⟨12, _⟩ => ⟨S1024x128, .bf16⟩
  | .local _ .vmem, ⟨13, _⟩ => ⟨S1024x128, .f32⟩
  | .local _ .vmem, ⟨14, _⟩ => ⟨S1024x128, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [BitOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S784x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x784 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S784x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S1024x784_S784x1024_1_0 : S1024x784.Transposes [1, 0] S784x1024
  bitsLt_bf16_f32 : FTy.bits .bf16 < FTy.bits .f32
  transposes_S10x1024_S1024x10_1_0 : S10x1024.Transposes [1, 0] S1024x10
  pads_S1024x10_S1024x128_000_01180 : S1024x10.Pads (![0, 0] : Fin 2 → Nat) ![0, 118] ![0, 0] S1024x128
  h_S_ : 0 < S_.numel
  inb_S1x1x1024_S1x1x1024_0_0_0 : ∀ a, (![0, 0, 0] : Fin 3 → Nat) a + S1x1x1024.size a ≤ S1x1x1024.size a
  h_S1x1x1024 : 0 < S1x1x1024.numel
  inb_S1024x784_S1024x784_0_0 : ∀ a, (![0, 0] : Fin 2 → Nat) a + S1024x784.size a ≤ S1024x784.size a
  h_S1024x784 : 0 < S1024x784.numel
  inb_S784x1024_S784x1024_0_0 : ∀ a, (![0, 0] : Fin 2 → Nat) a + S784x1024.size a ≤ S784x1024.size a
  h_S784x1024 : 0 < S784x1024.numel
  shapeCasts_S784x1024_S784x1024 : S784x1024.ShapeCasts S784x1024
  reduces_S1024x1024_S1024 : S1024x1024.Reduces [0] S1024
  shapeCasts_S1024_S1x1024 : S1024.ShapeCasts S1x1024
  shapeCasts_S1x1x1024_S1x1x1024 : S1x1x1024.ShapeCasts S1x1x1024
  shapeCasts_S1x1024_S1x1x1024 : S1x1024.ShapeCasts S1x1x1024
  reducesTo_S2x1x1024_S1024_d0_1 : S2x1x1024.ReducesTo [0, 1] S1024
  bcast_S_S1024 : S_.BroadcastsInDim S1024 (![] : Fin 0 → Fin S1024.rank)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S65536x128_S65536x10_0_0 : S65536x128.Slices ![0, 0] S65536x10
  dot_S1024x784_S784x1024_S1024x1024_1_0_0_1_n_n_wf : DotDims.WF S1024x784 S784x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S65536x784.size a
  hwx0_0 : ∀ i : grid0.Coords, EltTy.bits .f32 = 32 ∨ (Rect.block (s := S65536x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1024.size a ≤ S784x1024.size a
  hwx0_1 : ∀ i : grid0.Coords, EltTy.bits .f32 = 32 ∨ (Rect.block (s := S784x1024) S784x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S2x1x1024.size a
  hwx0_2 : ∀ i : grid0.Coords, EltTy.bits .f32 = 32 ∨ (Rect.block (s := S2x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x784.size a ≤ S65536x784.size a
  hwx1_0 : ∀ i : grid1.Coords, EltTy.bits .f32 = 32 ∨ (Rect.block (s := S65536x784) S1024x784.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S784x1024.size a ≤ S784x1024.size a
  hwx1_1 : ∀ i : grid1.Coords, EltTy.bits .f32 = 32 ∨ (Rect.block (s := S784x1024) S784x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S1024x128.size a
  hwx1_4 : ∀ i : grid1.Coords, EltTy.bits .bf16 = 32 ∨ (Rect.block (s := S1024x128) S1024x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S65536x128.size a
  hwx1_5 : ∀ i : grid1.Coords, EltTy.bits .f32 = 32 ∨ (Rect.block (s := S65536x128) S1024x128.size (cc1_transform_5 i) (hinb1_5 i)).WholeWords (EltTy.packing .f32)

variable [Facts₀]

def dot_S1024x784_S784x1024_S1024x1024_1_0_0_1_n_n : DotDims S1024x784 S784x1024 S1024x1024 where
  lhsContracting := [1]
  rhsContracting := [0]
  lhsNonContracting := [0]
  rhsNonContracting := [1]
  lhsBatch := []
  rhsBatch := []
  wf := dot_S1024x784_S784x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S784x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S1x1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x784.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S784x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1024x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S65536x784 : Shape := ⟨2, ![65536, 784]⟩
abbrev S1024x784 : Shape := ⟨2, ![1024, 784]⟩
abbrev S1024 : Shape := ⟨1, ![1024]⟩
abbrev S10x1024 : Shape := ⟨2, ![10, 1024]⟩
abbrev S784x1024 : Shape := ⟨2, ![784, 1024]⟩
abbrev S65536x1024 : Shape := ⟨2, ![65536, 1024]⟩
abbrev S_ : Shape := ⟨0, ![]⟩
abbrev S1x1024 : Shape := ⟨2, ![1, 1024]⟩
abbrev S1024x10 : Shape := ⟨2, ![1024, 10]⟩
abbrev S65536x10 : Shape := ⟨2, ![65536, 10]⟩

abbrev nBuf : Space → Nat
  | .hbm => 42
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S1024x784, .f32⟩
  | .hbm, ⟨2, _⟩ => ⟨S1024, .f32⟩
  | .hbm, ⟨3, _⟩ => ⟨S1024, .f32⟩
  | .hbm, ⟨4, _⟩ => ⟨S10x1024, .f32⟩
  | .hbm, ⟨5, _⟩ => ⟨S1024x784, .f32⟩
  | .hbm, ⟨6, _⟩ => ⟨S784x1024, .f32⟩
  | .hbm, ⟨7, _⟩ => ⟨S65536x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S1x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S_, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S65536x1024, .f32⟩
  | .hbm, ⟨31, _⟩ => ⟨S65536x1024, .f32⟩
  | .hbm, ⟨32, _⟩ => ⟨S1x1024, .f32⟩
  | .hbm, ⟨33, _⟩ => ⟨S65536x1024, .f32⟩
  | .hbm, ⟨34, _⟩ => ⟨S65536x1024, .f32⟩
  | .hbm, ⟨35, _⟩ => ⟨S1x1024, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S10x1024, .f32⟩
  | .hbm, ⟨40, _⟩ => ⟨S1024x10, .f32⟩
  | .hbm, ⟨41, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]

class Facts₀ : Prop where
  transposes_S1024x784_S784x1024_1_0 : S1024x784.Transposes [1, 0] S784x1024
  reducesTo_S65536x1024_S1024_d0 : S65536x1024.ReducesTo [0] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  transposes_S10x1024_S1024x10_1_0 : S10x1024.Transposes [1, 0] S1024x10
  dot_S65536x784_S784x1024_S65536x1024_1_0_0_1_n_n_wf : DotDims.WF S65536x784 S784x1024 S65536x1024 [1] [0] [0] [1] [] []
  dot_S65536x1024_S1024x10_S65536x10_1_0_0_1_n_n_wf : DotDims.WF S65536x1024 S1024x10 S65536x10 [1] [0] [0] [1] [] []

variable [Facts₀]

def dot_S65536x784_S784x1024_S65536x1024_1_0_0_1_n_n : DotDims S65536x784 S784x1024 S65536x1024 where
  lhsContracting := [1]
  rhsContracting := [0]
  lhsNonContracting := [0]
  rhsNonContracting := [1]
  lhsBatch := []
  rhsBatch := []
  wf := dot_S65536x784_S784x1024_S65536x1024_1_0_0_1_n_n_wf
def dot_S65536x1024_S1024x10_S65536x10_1_0_0_1_n_n : DotDims S65536x1024 S1024x10 S65536x10 where
  lhsContracting := [1]
  rhsContracting := [0]
  lhsNonContracting := [0]
  rhsNonContracting := [1]
  lhsBatch := []
  rhsBatch := []
  wf := dot_S65536x1024_S1024x10_S65536x10_1_0_0_1_n_n_wf

class Facts : Prop extends Facts₀ where

variable [Facts]
-- ==== Proof.KernelRun.lean ====
/-
  The idealized kernel's run with its RESULT named. The program is six segments — host operations, the padding
  function's two operations, the statistics region, the host operations that turn the two moments into the affine map,
  the apply region, the final slice — and the contents of every buffer at each boundary are a fold from the launch
  memory (the generated `Gen.W0 … Gen.W6`). Every weakly fair execution terminates with every unscoped buffer at
  the last boundary's contents; read at the result buffer this names the result `Gen.W6 m ρ c main_v27`, and at the
  arguments it gives them back unchanged. What that fold IS, index by index, is Proof/Glue.lean.
-/
import proofs.«142414_j9869834846708_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel's @main terminates, nothing faulting, with the result buffer at the
    last boundary's contents and the five arguments as launched: the launch over the six segments, the final thread
    state (every unscoped buffer at `Gen.W6`) read against the final memory, the arguments walked back to the launch. -/
theorem run_result : θ_run defs (onTc (τ := τ) (main (F := F))) ⟨m, fun _ => 0, ρ⟩ (fun r => ∀ c : Dev nD,
      r.2.mem ((c.tc : Thread nD τ).loc main_v27) = W6 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v27 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.KernelRun

end
-- ==== Proof.Spec.lean ====
/-
  The mathematics of the two programs, stated once over the extended reals, with no program imported.

  The network: a hidden layer `h = x · sign(w1)ᵀ` (65536 rows, 1024 columns, 784 terms per entry), batch
  normalisation of each column of `h` over the 65536 rows (mean, biased variance, `rsqrt (var + ε)`, scale `gamma`,
  shift `beta`), the sign of the normalised entry, and a second product with `sign(w2)ᵀ` (10 columns).

  The kernel computes the column statistics as the two moments `Σ h` and `Σ h²`, each as two partial sums of 32
  blocks of 1024 rows, takes `var = max (E[h²] - mean², 0)`, and applies the normalisation as one affine map
  `h · scale + shift`; the reference centres first, `var = E[(h - mean)²]`, `((h - mean) · rsqrt) · gamma + beta`.
  Over the reals the two are the same number; this file only NAMES both sides (the equality is Proof/Algebra.lean).
-/
import Idealize.ShloMosaic.PureOps.Ideal
import Idealize.ShloMosaic.Lib.ValueIdx

noncomputable section

namespace Cert.Spec

open Idealize.ShloMosaic Idealize.ShloMosaic.ValueIdx

/-- The shapes of the mathematics, as literals (the printed programs' shape names unfold to these). -/
abbrev SX : Shape := ⟨2, ![65536, 784]⟩
abbrev SW1 : Shape := ⟨2, ![1024, 784]⟩
abbrev SW1t : Shape := ⟨2, ![784, 1024]⟩
abbrev SVec : Shape := ⟨1, ![1024]⟩
abbrev SRow : Shape := ⟨2, ![1, 1024]⟩
abbrev SW2 : Shape := ⟨2, ![10, 1024]⟩
abbrev SW2p : Shape := ⟨2, ![1024, 128]⟩
abbrev SAcc : Shape := ⟨3, ![2, 1, 1024]⟩
abbrev SOutP : Shape := ⟨2, ![65536, 128]⟩
abbrev SOut : Shape := ⟨2, ![65536, 10]⟩

/-- The batch size 65536.0 and the variance guard ε (the f32 nearest 1e-5), by their bit patterns: both programs print
    the same two words, so neither is ever evaluated beyond "a positive real". -/
def nB : EReal := Ideal.ofBits .f32 0x47800000#32
def eps : EReal := Ideal.ofBits .f32 0x3727C5AC#32

/-! ## What each kernel region computes, as a function of the arrays it is handed -/

/-- Entry `(b, j)` of the product of a `[65536, 784]` matrix with a `[784, 1024]` one. -/
def mm (X : FVec Ideal SX .f32) (Wt : FVec Ideal SW1t .f32) (b : Fin 65536) (j : Fin 1024) : EReal :=
  ∑ k : Fin 784, X (ix2 b k) * Wt (ix2 k j)

/-- Row `r` of block `i` of half `c`: the rows are cut into 2 halves of 32 blocks of 1024 rows. -/
def row (c : Fin 2) (i : Fin 32) (r : Fin 1024) : Fin 65536 :=
  ⟨(c.val * 32 + i.val) * 1024 + r.val, by have := c.isLt; have := i.isLt; have := r.isLt; omega⟩

/-- The first region's two results at `(c, 0, j)`: the sum over half `c`'s rows of column `j` of the product, block by
    block, and the sum of its squares. -/
def partSum (X : FVec Ideal SX .f32) (Wt : FVec Ideal SW1t .f32) (c : Fin 2) (j : Fin 1024) : EReal :=
  ∑ i : Fin 32, ∑ r : Fin 1024, mm X Wt (row c i r) j
def partSumSq (X : FVec Ideal SX .f32) (Wt : FVec Ideal SW1t .f32) (c : Fin 2) (j : Fin 1024) : EReal :=
  ∑ i : Fin 32, ∑ r : Fin 1024, mm X Wt (row c i r) j * mm X Wt (row c i r) j

/-- The second region's result at `(b, n)`: the product's entry through the affine map `· scale + shift` of its column,
    its sign, and the product with the padded `[1024, 128]` matrix. -/
def applyOut (X : FVec Ideal SX .f32) (Wt : FVec Ideal SW1t .f32) (scale shift : FVec Ideal SRow .f32)
    (W2p : FVec Ideal SW2p .bf16) (b : Fin 65536) (n : Fin 128) : EReal :=
  ∑ j : Fin 1024, Ideal.sign (mm X Wt b j * scale (ix2 0 j) + shift (ix2 0 j)) * W2p (ix2 j n)

/-! ## The network, from the arguments -/

/-- The hidden layer's entry `(b, j)`: `Σₖ x(b, k) · sign (w1(j, k))`. -/
def hid (x : FVec Ideal SX .f32) (w1 : FVec Ideal SW1 .f32) (b : Fin 65536) (j : Fin 1024) : EReal :=
  ∑ k : Fin 784, x (ix2 b k) * Ideal.sign (w1 (ix2 j k))

/-! ### The kernel's normalisation: two moments, then one affine map -/

def kSum (x : FVec Ideal SX .f32) (w1 : FVec Ideal SW1 .f32) (j : Fin 1024) : EReal :=
  ∑ c : Fin 2, ∑ i : Fin 32, ∑ r : Fin 1024, hid x w1 (row c i r) j
def kSumSq (x : FVec Ideal SX .f32) (w1 : FVec Ideal SW1 .f32) (j : Fin 1024) : EReal :=
  ∑ c : Fin 2, ∑ i : Fin 32, ∑ r : Fin 1024, hid x w1 (row c i r) j * hid x w1 (row c i r) j
def kMean (x : FVec Ideal SX .f32) (w1 : FVec Ideal SW1 .f32) (j : Fin 1024) : EReal :=
  Ideal.div (kSum x w1 j) nB
def kVar (x : FVec Ideal SX .f32) (w1 : FVec Ideal SW1 .f32) (j : Fin 1024) : EReal :=
  max (Ideal.div (kSumSq x w1 j) nB - kMean x w1 j * kMean x w1 j) 0
def kInv (x : FVec Ideal SX .f32) (w1 : FVec Ideal SW1 .f32) (j : Fin 1024) : EReal :=
  Ideal.rsqrt (kVar x w1 j + eps)
def kScale (x : FVec Ideal SX .f32) (w1 : FVec Ideal SW1 .f32) (g : FVec Ideal SVec .f32) (j : Fin 1024) : EReal :=
  g (ix1 j) * kInv x w1 j
def kShift (x : FVec Ideal SX .f32) (w1 : FVec Ideal SW1 .f32) (g bt : FVec Ideal SVec .f32) (j : Fin 1024) : EReal :=
  bt (ix1 j) - (kMean x w1 j * g (ix1 j)) * kInv x w1 j
/-- The kernel's normalised entry: `h · scale + shift`. -/
def kAct (x : FVec Ideal SX .f32) (w1 : FVec Ideal SW1 .f32) (g bt : FVec Ideal SVec .f32) (b : Fin 65536) (j : Fin 1024) : EReal :=
  hid x w1 b j * kScale x w1 g j + kShift x w1 g bt j

/-! ### The reference's normalisation: centre, then scale -/

def rMean (x : FVec Ideal SX .f32) (w1 : FVec Ideal SW1 .f32) (j : Fin 1024) : EReal :=
  Ideal.div (0 + ∑ b : Fin 65536, hid x w1 b j) nB
def rVar (x : FVec Ideal SX .f32) (w1 : FVec Ideal SW1 .f32) (j : Fin 1024) : EReal :=
  Ideal.div (0 + ∑ b : Fin 65536, (hid x w1 b j - rMean x w1 j) * (hid x w1 b j - rMean x w1 j)) nB
def rInv (x : FVec Ideal SX .f32) (w1 : FVec Ideal SW1 .f32) (j : Fin 1024) : EReal :=
  Ideal.rsqrt (rVar x w1 j + eps)
/-- The reference's normalised entry: `((h - mean) · rsqrt (var + ε)) · gamma + beta`. -/
def rAct (x : FVec Ideal SX .f32) (w1 : FVec Ideal SW1 .f32) (g bt : FVec Ideal SVec .f32) (b : Fin 65536) (j : Fin 1024) : EReal :=
  ((hid x w1 b j - rMean x w1 j) * rInv x w1 j) * g (ix1 j) + bt (ix1 j)

/-! ### The output -/

/-- The network's output at `(b, n)` as the reference computes it: `Σⱼ sign (act(b, j)) · sign (w2(n, j))`. -/
def out (x : FVec Ideal SX .f32) (w1 : FVec Ideal SW1 .f32) (g bt : FVec Ideal SVec .f32) (w2 : FVec Ideal SW2 .f32) :
    FVec Ideal SOut .f32 :=
  fun i => ∑ j : Fin 1024, Ideal.sign (rAct x w1 g bt (i 0) j) * Ideal.sign (w2 (ix2 (i 1) j))

/-- The same with the kernel's normalisation. -/
def kOut (x : FVec Ideal SX .f32) (w1 : FVec Ideal SW1 .f32) (g bt : FVec Ideal SVec .f32) (w2 : FVec Ideal SW2 .f32) :
    FVec Ideal SOut .f32 :=
  fun i => ∑ j : Fin 1024, Ideal.sign (kAct x w1 g bt (i 0) j) * Ideal.sign (w2 (ix2 (i 1) j))

/-- "Every entry is a real number" — what the precondition gives of each argument. -/
def IsReal {s : Shape} {φ : FTy} (v : FVec Ideal s φ) : Prop := ∀ i, ∃ r : ℝ, v i = (r : EReal)

end Cert.Spec

end
-- ==== Proof.HostRead.lean ====
/-
  The host operations around the two regions, read at an index, for ANY contents of the buffers they read.

  Before the first region: `sign(w1)ᵀ` (entry `(k, j)` is `sign (w1 (j, k))`) and `sign(w2)ᵀ` padded with zeros from 10 to
  128 columns (entry `(j, n)`, `n < 10`, is `sign (w2 (n, j))`). Between the regions: each `[2, 1, 1024]` array of partial
  sums is summed over its two halves and divided by the batch size; the variance is `max (E[h²] - mean², 0)`; the affine
  map's row vectors are `gamma · rsqrt (var + ε)` and `beta - (mean · gamma) · rsqrt (var + ε)`, reshaped to `[1, 1024]`.
  After the second region: the first 10 of the 128 columns.
-/
import proofs.«142414_j9869834846708_2_alg».proof.Proof.Gen.KernelIdeal
import proofs.«142414_j9869834846708_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.KernelIdeal.HostRead

open Cert.KernelIdeal Cert.KernelIdeal.Gen Idealize.ShloMosaic Idealize.ShloMosaic.ValueIdx

/-! ## The two weight matrices as the regions receive them -/

/-- `sign(w1)ᵀ`, the `[784, 1024]` matrix both regions multiply by. -/
def signT1 (w : FVec Ideal S1024x784 .f32) : FVec Ideal S784x1024 .f32 :=
  transpose S784x1024 [1, 0] (Host.sign w) transposes_S1024x784_S784x1024_1_0

theorem signT1_apply (w : FVec Ideal S1024x784 .f32) (k : Fin 784) (j : Fin 1024) :
    signT1 w (ix2 k j) = Ideal.sign (w (ix2 j k)) :=
  transpose_apply [1, 0] (Host.sign w) transposes_S1024x784_S784x1024_1_0 (ix2 k j) (ix2 j k)
    (fun b => match b with | ⟨0, _⟩ => rfl | ⟨1, _⟩ => rfl)

/-- `sign(w2)ᵀ` in bf16 (the same numbers), padded from 10 to 128 columns with the value `v`. -/
def signT2pad (w : FVec Ideal S10x1024 .f32) (v : FVec Ideal S_ .bf16) : FVec Ideal S1024x128 .bf16 :=
  pad S1024x128 ![0, 0] ![0, 118] ![0, 0]
    (transpose S1024x10 [1, 0] (truncf .bf16 (Host.sign w) bitsLt_bf16_f32) transposes_S10x1024_S1024x10_1_0) v
    pads_S1024x10_S1024x128_000_01180 h_S_

/-- Inside the first 10 columns the padded matrix is `sign(w2)ᵀ`. -/
theorem signT2pad_apply (w : FVec Ideal S10x1024 .f32) (v : FVec Ideal S_ .bf16) (j : Fin 1024) (n : Fin 10) :
    signT2pad w v (ix2 j ⟨n.val, by have := n.isLt; omega⟩) = Ideal.sign (w (ix2 n j)) := by
  unfold signT2pad
  rw [pad_apply_of_inside ![0, 0] ![0, 118] ![0, 0] _ v pads_S1024x10_S1024x128_000_01180 h_S_
    (ix2 j ⟨n.val, by have := n.isLt; omega⟩) (ix2 j n) (fun a => match a with | ⟨0, _⟩ => by simp | ⟨1, _⟩ => by simp)]
  exact transpose_apply [1, 0] (truncf .bf16 (Host.sign w) bitsLt_bf16_f32) transposes_S10x1024_S1024x10_1_0 (ix2 j n) (ix2 n j)
    (fun b => match b with | ⟨0, _⟩ => rfl | ⟨1, _⟩ => rfl)

/-! ## The two moments -/

/-- The host's sum of a `[2, 1, 1024]` array over its first two axes, from the zero word: the two halves added. -/
theorem halves_sum (A : FVec Ideal S2x1x1024 .f32) (j : Fin 1024) :
    Host.reduceAdd A (constant S_ .f32 0x00000000#32) reducesTo_S2x1x1024_S1024_d0_1 h_S_ (ix1 j) = ∑ c : Fin 2, A (ix3 c 0 j) := by
  simp only [Host.reduceAdd, Ideal.hostReduceAdd_def]
  unfold Ideal.hostReduceAdd
  show Ideal.ofBits .f32 0x00000000#32 + _ = _
  rw [Ideal.ofBits_zero_f32, zero_add]
  -- the indices that drop to `j` are exactly `(c, 0, j)`, one per half `c`
  refine (Finset.sum_bij (fun c _ => ix3 c 0 j) (fun c _ => ?_) (fun c _ c' _ h => ?_) (fun i hi => ?_) (fun c _ => rfl)).symm
  · exact Finset.mem_filter.mpr ⟨Finset.mem_univ _, funext fun b => match b with | ⟨0, _⟩ => rfl⟩
  · exact congrFun h 0
  · have hd := (Finset.mem_filter.mp hi).2
    refine ⟨i 0, Finset.mem_univ _, ?_⟩
    have h2 : i 2 = j := Fin.ext (congrArg Fin.val (congrFun hd 0))
    rw [eq_ix3 i, ← h2]
    exact congrArg (fun u => ix3 (i 0) u (i 2)) (Subsingleton.elim _ _)

/-- A moment: the two halves' partial sums added and divided by the batch size. -/
def moment (A : FVec Ideal S2x1x1024 .f32) : FVec Ideal S1024 .f32 :=
  Host.divf (Host.reduceAdd A (constant S_ .f32 0x00000000#32) reducesTo_S2x1x1024_S1024_d0_1 h_S_)
    (broadcastInDim S1024 ![] bcast_S_S1024 (constant S_ .f32 0x47800000#32))

theorem moment_apply (A : FVec Ideal S2x1x1024 .f32) (j : Fin 1024) :
    moment A (ix1 j) = Ideal.div (∑ c : Fin 2, A (ix3 c 0 j)) Cert.Spec.nB := by
  show Ideal.div (Host.reduceAdd A (constant S_ .f32 0x00000000#32) reducesTo_S2x1x1024_S1024_d0_1 h_S_ (ix1 j)) _ = _
  rw [halves_sum]; rfl

/-! ## The affine map's two row vectors -/

/-- `rsqrt (max (E[h²] - mean², 0) + ε)`, from the arrays of partial sums of `h` (`A0`) and of `h²` (`A1`). -/
def invStd (A0 A1 : FVec Ideal S2x1x1024 .f32) : FVec Ideal S1024 .f32 :=
  Host.rsqrt (addf (maximumf (subf (moment A1) (mulf (moment A0) (moment A0)))
      (broadcastInDim S1024 ![] bcast_S_S1024 (constant S_ .f32 0x00000000#32)))
    (broadcastInDim S1024 ![] bcast_S_S1024 (constant S_ .f32 0x3727C5AC#32)))

theorem invStd_apply (A0 A1 : FVec Ideal S2x1x1024 .f32) (j : Fin 1024) :
    invStd A0 A1 (ix1 j)
      = Ideal.rsqrt (max (moment A1 (ix1 j) - moment A0 (ix1 j) * moment A0 (ix1 j)) 0 + Cert.Spec.eps) := by
  show Ideal.rsqrt (max (_ - _ * _) (Ideal.ofBits .f32 0x00000000#32) + _) = _
  rw [Ideal.ofBits_zero_f32]; rfl

/-- A vector `[1024]` reshaped to a row `[1, 1024]`, read at `(0, j)`. -/
theorem row_apply (v : FVec Ideal S1024 .f32) (j : Fin 1024) :
    shapeCast S1x1024 v shapeCasts_S1024_S1x1024 (ix2 0 j) = v (ix1 j) :=
  shapeCast_apply v shapeCasts_S1024_S1x1024 (ix2 0 j) (ix1 j) (by rw [Shape.rowMajor_val_one, Shape.rowMajor_val_two]; simp)

/-- `scale = gamma · rsqrt (var + ε)` and `shift = beta - (mean · gamma) · rsqrt (var + ε)`, as rows. -/
def scaleRow (A0 A1 : FVec Ideal S2x1x1024 .f32) (g : FVec Ideal S1024 .f32) : FVec Ideal S1x1024 .f32 :=
  shapeCast S1x1024 (mulf g (invStd A0 A1)) shapeCasts_S1024_S1x1024
def shiftRow (A0 A1 : FVec Ideal S2x1x1024 .f32) (g bt : FVec Ideal S1024 .f32) : FVec Ideal S1x1024 .f32 :=
  shapeCast S1x1024 (subf bt (mulf (mulf (moment A0) g) (invStd A0 A1))) shapeCasts_S1024_S1x1024

theorem scaleRow_apply (A0 A1 : FVec Ideal S2x1x1024 .f32) (g : FVec Ideal S1024 .f32) (j : Fin 1024) :
    scaleRow A0 A1 g (ix2 0 j) = g (ix1 j) * invStd A0 A1 (ix1 j) :=
  row_apply _ j
theorem shiftRow_apply (A0 A1 : FVec Ideal S2x1x1024 .f32) (g bt : FVec Ideal S1024 .f32) (j : Fin 1024) :
    shiftRow A0 A1 g bt (ix2 0 j) = bt (ix1 j) - (moment A0 (ix1 j) * g (ix1 j)) * invStd A0 A1 (ix1 j) :=
  row_apply _ j

/-! ## The final slice -/

/-- The first 10 of 128 columns. -/
theorem first10_apply (Y : FVec Ideal S65536x128 .f32) (b : Fin 65536) (n : Fin 10) :
    extractStridedSlice S65536x10 ![0, 0] Y slices_S65536x128_S65536x10_0_0 (ix2 b n)
      = Y (ix2 b ⟨n.val, by have := n.isLt; omega⟩) :=
  extractStridedSlice_apply ![0, 0] Y slices_S65536x128_S65536x10_0_0 (ix2 b n) (ix2 b ⟨n.val, by have := n.isLt; omega⟩)
    (fun a => match a with | ⟨0, _⟩ => by simp | ⟨1, _⟩ => by simp)

end Cert.KernelIdeal.HostRead

end
-- ==== Proof.Fold.lean ====
/-
  The contents of the kernel program's buffers at the boundaries of its six segments, read back to the launch memory.

  The generated frame names the contents of every buffer at each boundary as a fold from the launch memory: host
  operations apply their functions, a region leaves in each of its arrays what its write-backs leave and every other
  buffer alone. Here each buffer a later segment READS is walked back: the two weight matrices to `sign(w1)ᵀ` and the
  padded `sign(w2)ᵀ` of the arguments, the arguments to themselves, the affine map's two rows to the host
  operations' functions of the first region's two result arrays, and the program's result to the first ten columns of
  the second region's result array.
-/
import proofs.«142414_j9869834846708_2_alg».proof.Proof.Gen.KernelIdeal.Frame
import proofs.«142414_j9869834846708_2_alg».proof.Proof.HostRead
import Idealize.ShloMosaic.Lib.StableHlo.Run

set_option maxRecDepth 16384

noncomputable section

namespace Cert.KernelIdeal.Fold

open Cert.KernelIdeal Cert.KernelIdeal.Gen Cert.KernelIdeal.HostRead
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The five arguments as launched, at their array types. -/
abbrev a0 (c : Dev nD) : FVec Ideal S65536x784 .f32 := m ((c.tc : Thread nD τ).loc main_arg0)
abbrev a1 (c : Dev nD) : FVec Ideal S1024x784 .f32 := m ((c.tc : Thread nD τ).loc main_arg1)
abbrev a2 (c : Dev nD) : FVec Ideal S1024 .f32 := m ((c.tc : Thread nD τ).loc main_arg2)
abbrev a3 (c : Dev nD) : FVec Ideal S1024 .f32 := m ((c.tc : Thread nD τ).loc main_arg3)
abbrev a4 (c : Dev nD) : FVec Ideal S10x1024 .f32 := m ((c.tc : Thread nD τ).loc main_arg4)

/-- The padding value: the integer zero converted to bf16. -/
abbrev padv : FVec Ideal S_ .bf16 := sitofp (F := Ideal) .bf16 (constantI S_ 32 0#32)

/-! ## At the first region's entry -/

theorem W2_arg0 (c : Dev nD) : (W2 m ρ c (Proc.devRef .tc main_arg0) : S65536x784.Idx → EReal) = a0 m c := by
  show StableHlo.after hostOps0_1 (StableHlo.after hostOps0 (W0 m ρ c)) (Proc.devRef .tc main_arg0) = _
  after_results
theorem W2_arg2 (c : Dev nD) : (W2 m ρ c (Proc.devRef .tc main_arg2) : S1024.Idx → EReal) = a2 m c := by
  show StableHlo.after hostOps0_1 (StableHlo.after hostOps0 (W0 m ρ c)) (Proc.devRef .tc main_arg2) = _
  after_results
theorem W2_arg3 (c : Dev nD) : (W2 m ρ c (Proc.devRef .tc main_arg3) : S1024.Idx → EReal) = a3 m c := by
  show StableHlo.after hostOps0_1 (StableHlo.after hostOps0 (W0 m ρ c)) (Proc.devRef .tc main_arg3) = _
  after_results
theorem W2_v1 (c : Dev nD) : (W2 m ρ c (Proc.devRef .tc main_v1) : S784x1024.Idx → EReal) = signT1 (a1 m c) := by
  show StableHlo.after hostOps0_1 (StableHlo.after hostOps0 (W0 m ρ c)) (Proc.devRef .tc main_v1) = _
  after_results
  rfl
theorem W2_v5 (c : Dev nD) : (W2 m ρ c (Proc.devRef .tc main_v5) : S1024x128.Idx → EReal) = signT2pad (a4 m c) padv := by
  show StableHlo.after hostOps0_1 (StableHlo.after hostOps0 (W0 m ρ c)) (Proc.devRef .tc main_v5) = _
  after_results
  rfl

/-! ## At the first region's exit -/

theorem W3_arg0 (c : Dev nD) : (W3 m ρ c (Proc.devRef .tc main_arg0) : S65536x784.Idx → EReal) = a0 m c :=
  ((W3_arr m ρ c 0).trans (((dat0 (V2 m ρ) c).arrAt_in 0 rfl _).trans (A_eq0 (V2 m ρ) c 0))).trans (W2_arg0 m ρ c)
theorem W3_v1 (c : Dev nD) : (W3 m ρ c (Proc.devRef .tc main_v1) : S784x1024.Idx → EReal) = signT1 (a1 m c) :=
  ((W3_arr m ρ c 1).trans (((dat0 (V2 m ρ) c).arrAt_in 1 rfl _).trans (A_eq0 (V2 m ρ) c 1))).trans (W2_v1 m ρ c)
theorem W3_arg2 (c : Dev nD) : (W3 m ρ c (Proc.devRef .tc main_arg2) : S1024.Idx → EReal) = a2 m c :=
  (W3_of_ne m ρ c main_arg2 (by decide)).trans (W2_arg2 m ρ c)
theorem W3_arg3 (c : Dev nD) : (W3 m ρ c (Proc.devRef .tc main_arg3) : S1024.Idx → EReal) = a3 m c :=
  (W3_of_ne m ρ c main_arg3 (by decide)).trans (W2_arg3 m ρ c)
theorem W3_v5 (c : Dev nD) : (W3 m ρ c (Proc.devRef .tc main_v5) : S1024x128.Idx → EReal) = signT2pad (a4 m c) padv :=
  (W3_of_ne m ρ c main_v5 (by decide)).trans (W2_v5 m ρ c)

/-- The first region's two result arrays, as its write-backs leave them. -/
abbrev sums (c : Dev nD) : FVec Ideal S2x1x1024 .f32 := (dat0 (V2 m ρ) c).arrAt 2 cfg0.N
abbrev sumsqs (c : Dev nD) : FVec Ideal S2x1x1024 .f32 := (dat0 (V2 m ρ) c).arrAt 3 cfg0.N

theorem W3_v6_0 (c : Dev nD) : (W3 m ρ c (Proc.devRef .tc main_v6_0) : S2x1x1024.Idx → EReal) = sums m ρ c := W3_arr m ρ c 2
theorem W3_v6_1 (c : Dev nD) : (W3 m ρ c (Proc.devRef .tc main_v6_1) : S2x1x1024.Idx → EReal) = sumsqs m ρ c := W3_arr m ρ c 3

/-! ## At the second region's entry -/

theorem W4_arg0 (c : Dev nD) : (W4 m ρ c (Proc.devRef .tc main_arg0) : S65536x784.Idx → EReal) = a0 m c := by
  refine Eq.trans ?_ (W3_arg0 m ρ c)
  show StableHlo.after hostOps1 (W3 m ρ c) (Proc.devRef .tc main_arg0) = _
  after_results
theorem W4_v1 (c : Dev nD) : (W4 m ρ c (Proc.devRef .tc main_v1) : S784x1024.Idx → EReal) = signT1 (a1 m c) := by
  refine Eq.trans ?_ (W3_v1 m ρ c)
  show StableHlo.after hostOps1 (W3 m ρ c) (Proc.devRef .tc main_v1) = _
  after_results
theorem W4_v5 (c : Dev nD) : (W4 m ρ c (Proc.devRef .tc main_v5) : S1024x128.Idx → EReal) = signT2pad (a4 m c) padv := by
  refine Eq.trans ?_ (W3_v5 m ρ c)
  show StableHlo.after hostOps1 (W3 m ρ c) (Proc.devRef .tc main_v5) = _
  after_results
theorem W4_v21 (c : Dev nD) : (W4 m ρ c (Proc.devRef .tc main_v21) : S1x1024.Idx → EReal) = scaleRow (sums m ρ c) (sumsqs m ρ c) (a2 m c) := by
  have e : (W4 m ρ c (Proc.devRef .tc main_v21) : S1x1024.Idx → EReal)
      = scaleRow (W3 m ρ c (Proc.devRef .tc main_v6_0)) (W3 m ρ c (Proc.devRef .tc main_v6_1)) (W3 m ρ c (Proc.devRef .tc main_arg2)) := by
    show StableHlo.after hostOps1 (W3 m ρ c) (Proc.devRef .tc main_v21) = _
    after_results
    rfl
  rw [e, W3_v6_0, W3_v6_1, W3_arg2]
set_option maxHeartbeats 1000000 in
theorem W4_v25 (c : Dev nD) : (W4 m ρ c (Proc.devRef .tc main_v25) : S1x1024.Idx → EReal) = shiftRow (sums m ρ c) (sumsqs m ρ c) (a2 m c) (a3 m c) := by
  have e : (W4 m ρ c (Proc.devRef .tc main_v25) : S1x1024.Idx → EReal)
      = shiftRow (W3 m ρ c (Proc.devRef .tc main_v6_0)) (W3 m ρ c (Proc.devRef .tc main_v6_1)) (W3 m ρ c (Proc.devRef .tc main_arg2)) (W3 m ρ c (Proc.devRef .tc main_arg3)) := by
    show StableHlo.after hostOps1 (W3 m ρ c) (Proc.devRef .tc main_v25) = _
    after_results_simp
    rfl
  rw [e, W3_v6_0, W3_v6_1, W3_arg2, W3_arg3]

/-! ## The result -/

/-- The second region's result array, as its write-backs leave it. -/
abbrev outPad (c : Dev nD) : FVec Ideal S65536x128 .f32 := (dat1 (V4 m ρ) c).arrAt 5 cfg1.N

theorem W6_v27 (c : Dev nD) : (W6 m ρ c (Proc.devRef .tc main_v27) : S65536x10.Idx → EReal)
    = extractStridedSlice S65536x10 ![0, 0] (outPad m ρ c) slices_S65536x128_S65536x10_0_0 := by
  rw [show outPad m ρ c = W5 m ρ c (Proc.devRef .tc main_v26) from (W5_arr m ρ c 5).symm]
  show StableHlo.after hostOps2 (W5 m ρ c) (Proc.devRef .tc main_v27) = _
  after_results

end Cert.KernelIdeal.Fold

end
-- ==== Proof.StatsPieces.lean ====
/-
  The statistics region, one grid point at a time: what the body leaves in each of its two accumulator blocks.

  The region runs over 64 grid points, two halves of 32. At each point it holds a block of 1024 rows of `x`, the whole
  matrix `sign(w1)ᵀ`, and two accumulator blocks of 1024 lanes. At the first point of a half it first stores zero in
  both accumulators; at every point it then adds, lane by lane, the column sums of the block's product into the first
  accumulator and the column sums of the squared product into the second.

  This file reads that off the stores the body performs. An accumulator block is written by stores that each cover the
  whole block, so what it holds afterwards is the LAST store's value; the loads that value is computed from read whole
  buffers, so they read the buffers' contents. Two cases:
    * a later point of a half: one store, of `acc + (column sums)` with `acc` what the buffer held before the body;
    * the first point of a half: the zero block is stored, then read back (so `acc` is the zero block), then the same store.
  The results are stated for any float values, over the body's arithmetic as one term (`k0_pay4` for the sums, `k0_pay5`
  for the sums of squares, `k0_pay1` / `k0_pay2` for the two zero blocks).
-/
import proofs.«142414_j9869834846708_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Stats

open Cert.KernelIdeal Cert.KernelIdeal.Gen

variable {F : FTy → Type} [FloatOps F]

/-- Every load and store of the body starts at the origin of its buffer: the offsets `(0, 0)` and `(0, 0, 0)` are the
    constant zero function. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A LATER POINT OF A HALF, the sums: the one store covers the block, and its value is the block's contribution added to
    `xo2`, what the accumulator held before; the three loads it is computed from read the whole buffers. -/
theorem out_B_2 (c : Dev nD) (i : grid0.Coords) (a2 : Memref sig .tc .vmem S1024x784 .f32) (h2 : a2.IsWhole)
    (a3 : Memref sig .tc .vmem S784x1024 .f32) (h3 : a3.IsWhole) (a4 : Memref sig .tc .vmem S1x1x1024 .f32) (h4 : a4.IsWhole)
    (a5 : Memref sig .tc .vmem S1x1x1024 .f32) (h5 : a5.IsWhole) (hc : ¬cond0_0 i)
    (x0 : Vec F S1024x784 .f32) (x1 : Vec F S784x1024 .f32) (xo2 xo3 : Vec F S1x1x1024 .f32) :
    out0_B_2 c i a2 h2 a3 h3 a4 h4 a5 h5 hc x0 x1 xo2 xo3 = k0_pay4 x0 x1 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz3]
  simp only [View.readAt_eq_ld, h2.read_unread, h3.read_unread, h4.read_unread, View.ld_unit_zero (S := S1024x784) hz2,
    View.ld_unit_zero (S := S784x1024) hz2, View.ld_unit_zero (S := S1x1x1024) hz3]

/-- A LATER POINT OF A HALF, the sums of squares: the same with the second accumulator, which held `xo3`. -/
theorem out_B_3 (c : Dev nD) (i : grid0.Coords) (a2 : Memref sig .tc .vmem S1024x784 .f32) (h2 : a2.IsWhole)
    (a3 : Memref sig .tc .vmem S784x1024 .f32) (h3 : a3.IsWhole) (a4 : Memref sig .tc .vmem S1x1x1024 .f32) (h4 : a4.IsWhole)
    (a5 : Memref sig .tc .vmem S1x1x1024 .f32) (h5 : a5.IsWhole) (hc : ¬cond0_0 i)
    (x0 : Vec F S1024x784 .f32) (x1 : Vec F S784x1024 .f32) (xo2 xo3 : Vec F S1x1x1024 .f32) :
    out0_B_3 c i a2 h2 a3 h3 a4 h4 a5 h5 hc x0 x1 xo2 xo3 = k0_pay5 x0 x1 xo3 := by
  unfold out0_B_3
  rw [View.read_writes_eq_canon _ _ _ (cover0_B_3 c i a2 h2 a3 h3 a4 h4 a5 h5 hc x0 x1 xo2 xo3)]
  unfold kernelRun0_B
  dsimp only
  rw [View.canon_unit_zero hz3]
  simp only [View.readAt_eq_ld, h2.read_unread, h3.read_unread, h5.read_unread, View.ld_unit_zero (S := S1024x784) hz2,
    View.ld_unit_zero (S := S784x1024) hz2, View.ld_unit_zero (S := S1x1x1024) hz3]

/-- THE FIRST POINT OF A HALF, the sums: two stores, the later one on top. The later store's value adds the block's
    contribution to what a load of the accumulator returns AFTER the zero block was stored over all of it: the zero
    block. Whatever the buffer held before the body does not enter. -/
theorem out_A_2 (c : Dev nD) (i : grid0.Coords) (a2 : Memref sig .tc .vmem S1024x784 .f32) (h2 : a2.IsWhole)
    (a3 : Memref sig .tc .vmem S784x1024 .f32) (h3 : a3.IsWhole) (a4 : Memref sig .tc .vmem S1x1x1024 .f32) (h4 : a4.IsWhole)
    (a5 : Memref sig .tc .vmem S1x1x1024 .f32) (h5 : a5.IsWhole) (hc : cond0_0 i)
    (x0 : Vec F S1024x784 .f32) (x1 : Vec F S784x1024 .f32) :
    out0_A_2 c i a2 h2 a3 h3 a4 h4 a5 h5 hc x0 x1 = k0_pay4 x0 x1 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x1x1024) hz3, View.readCov_unit_zero (S := S1x1x1024) _ hz3]
  simp only [View.readAt_eq_ld, h2.read_unread, h3.read_unread, View.ld_unit_zero (S := S1024x784) hz2,
    View.ld_unit_zero (S := S784x1024) hz2]

/-- THE FIRST POINT OF A HALF, the sums of squares: the same with the second accumulator and its zero block. -/
theorem out_A_3 (c : Dev nD) (i : grid0.Coords) (a2 : Memref sig .tc .vmem S1024x784 .f32) (h2 : a2.IsWhole)
    (a3 : Memref sig .tc .vmem S784x1024 .f32) (h3 : a3.IsWhole) (a4 : Memref sig .tc .vmem S1x1x1024 .f32) (h4 : a4.IsWhole)
    (a5 : Memref sig .tc .vmem S1x1x1024 .f32) (h5 : a5.IsWhole) (hc : cond0_0 i)
    (x0 : Vec F S1024x784 .f32) (x1 : Vec F S784x1024 .f32) :
    out0_A_3 c i a2 h2 a3 h3 a4 h4 a5 h5 hc x0 x1 = k0_pay5 x0 x1 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x1x1024) hz3, View.readCov_unit_zero (S := S1x1x1024) _ hz3]
  simp only [View.readAt_eq_ld, h2.read_unread, h3.read_unread, View.ld_unit_zero (S := S1024x784) hz2,
    View.ld_unit_zero (S := S784x1024) hz2]

end Cert.KernelIdeal.Stats

end
-- ==== Proof.StatsPayload.lean ====
/-
  The arithmetic of the statistics region's body, read entry by entry over the extended reals.

  The body multiplies a block `x` of 1024 rows by the matrix `w` (784 × 1024) into a zero accumulator, sums the product
  (or its entrywise square) along the rows into a vector of 1024 lanes, gives that vector two leading unit axes, and adds
  it to the accumulator block `acc`. Over the extended reals every operation is exact, so at lane `j`

      sums:             acc(0, 0, j) + Σ_r  Σ_k x(r, k) · w(k, j)
      sums of squares:  acc(0, 0, j) + Σ_r (Σ_k x(r, k) · w(k, j)) · (Σ_k x(r, k) · w(k, j))

  with `r` over the block's 1024 rows and `k` over the 784 contracted coordinates. Nothing is distributed or cancelled:
  only `0 + s = s` (the matmul's zero accumulator) is used of the arithmetic.
-/
import proofs.«142414_j9869834846708_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.KernelIdeal.Stats

open Cert.KernelIdeal Cert.KernelIdeal.Gen

/-- The dimension numbers of the block product: rows of the left operand against columns of the right,
    one contracted axis of extent 784. -/
abbrev DD : DotDims S1024x784 S784x1024 S1024x1024 := dot_S1024x784_S784x1024_S1024x1024_1_0_0_1_n_n

/-- The left operand of entry `(r, j)` at contraction index `q` is read at row `r`, -/
theorem lhs_row (i : S1024x1024.Idx) (q : DD.contr.Idx) : (DD.lhsIdx i q 0).val = (i 0).val := by
  unfold DotDims.lhsIdx
  rw [dif_neg (show ¬(0 : Fin S1024x784.rank) ∈ DD.lhsBatch by decide),
    dif_pos (show (0 : Fin S1024x784.rank) ∈ DD.lhsNonContracting by decide)]
  rfl
/-- column `q`; -/
theorem lhs_col (i : S1024x1024.Idx) (q : DD.contr.Idx) : (DD.lhsIdx i q 1).val = (q ⟨0, by decide⟩).val :=
  DD.lhsIdx_val_of_single rfl i q
/-- the right operand at row `q`, -/
theorem rhs_row (i : S1024x1024.Idx) (q : DD.contr.Idx) : (DD.rhsIdx i q 0).val = (q ⟨0, by decide⟩).val :=
  DD.rhsIdx_val_of_single rfl i q
/-- column `j`. -/
theorem rhs_col (i : S1024x1024.Idx) (q : DD.contr.Idx) : (DD.rhsIdx i q 1).val = (i 1).val := by
  unfold DotDims.rhsIdx
  rw [dif_neg (show ¬(1 : Fin S784x1024.rank) ∈ DD.rhsBatch by decide),
    dif_pos (show (1 : Fin S784x1024.rank) ∈ DD.rhsNonContracting by decide)]
  rfl

/-- THE BLOCK PRODUCT at `(r, j)`: the matmul into the zero accumulator is `Σₖ x(r, k) · w(k, j)` over the 784
    contracted coordinates (the cast of the right operand to its own shape is the identity). -/
theorem prod_apply (x : Vec Ideal S1024x784 .f32) (w : Vec Ideal S784x1024 .f32) (r j : Fin 1024) :
    k0_pay3 x w (ix2 r j) = ∑ k : Fin 784, x (ix2 r k) * w (ix2 k j) := by
  unfold k0_pay3
  rw [shapeCast_self]
  refine (Ideal.matmul_constant_zero_apply DD (some .fp32) x w (ix2 r j)).trans ?_
  rw [← Equiv.sum_comp (contrEquiv1 DD 784 rfl rfl).symm]
  refine Finset.sum_congr rfl fun k _ => ?_
  have hk := contrEquiv1_symm_val DD 784 rfl rfl k
  have el : DD.lhsIdx (ix2 r j) ((contrEquiv1 DD 784 rfl rfl).symm k) = ix2 r k := funext fun a => Fin.ext (by
    match a with
    | ⟨0, _⟩ => exact lhs_row _ _
    | ⟨1, _⟩ => exact (lhs_col _ _).trans hk)
  have er : DD.rhsIdx (ix2 r j) ((contrEquiv1 DD 784 rfl rfl).symm k) = ix2 k j := funext fun a => Fin.ext (by
    match a with
    | ⟨0, _⟩ => exact (rhs_row _ _).trans hk
    | ⟨1, _⟩ => exact rhs_col _ _)
  rw [el, er]

/-- A lane sum along the rows: the reduction of a `[1024, 1024]` array along axis 0, cast to `[1, 1024]` and then to
    `[1, 1, 1024]`, reads at `(0, 0, j)` the sum over the 1024 rows `r` of the array at `(r, j)`. -/
theorem colsum_apply (v : FVec Ideal S1024x1024 .f32) (j : Fin 1024) :
    shapeCast S1x1x1024 (shapeCast S1x1024
        (multiReduction .add [0] S1024 v 0x00000000#32 reduces_S1024x1024_S1024 (.inl rfl) rfl)
        shapeCasts_S1024_S1x1024) shapeCasts_S1x1024_S1x1x1024 (ix3 (0 : Fin 1) (0 : Fin 1) j)
      = ∑ r : Fin 1024, v (ix2 r j) := by
  refine (shapeCast_ab_1ab_apply _ _ (0 : Fin 1) (0 : Fin 1) j).trans ?_
  refine (shapeCast_a_1a_apply _ _ (0 : Fin 1) j).trans ?_
  refine (Ideal.multiReduction_add_single v _ reduces_S1024x1024_S1024 _ _ (ix1 j)).trans ?_
  refine Finset.sum_congr rfl fun r _ => congrArg v ?_
  funext a
  match a with
  | ⟨0, _⟩ => rfl
  | ⟨1, _⟩ => rfl

/-- THE FIRST MOMENT's step: the block adds, to what the accumulator held at lane `j`, the sum over its 1024 rows of the
    product's column `j`. -/
theorem sum_step_apply (x : Vec Ideal S1024x784 .f32) (w : Vec Ideal S784x1024 .f32) (acc : Vec Ideal S1x1x1024 .f32)
    (j : Fin 1024) :
    k0_pay4 x w acc (ix3 (0 : Fin 1) (0 : Fin 1) j)
      = acc (ix3 (0 : Fin 1) (0 : Fin 1) j) + ∑ r : Fin 1024, ∑ k : Fin 784, x (ix2 r k) * w (ix2 k j) := by
  unfold k0_pay4
  rw [shapeCast_self]
  refine (addf_apply _ _ _).trans (congrArg (acc (ix3 (0 : Fin 1) (0 : Fin 1) j) + ·) ?_)
  refine (colsum_apply _ j).trans (Finset.sum_congr rfl fun r _ => prod_apply x w r j)

/-- THE SECOND MOMENT's step: the same with each entry of the product squared. -/
theorem sumsq_step_apply (x : Vec Ideal S1024x784 .f32) (w : Vec Ideal S784x1024 .f32) (acc : Vec Ideal S1x1x1024 .f32)
    (j : Fin 1024) :
    k0_pay5 x w acc (ix3 (0 : Fin 1) (0 : Fin 1) j)
      = acc (ix3 (0 : Fin 1) (0 : Fin 1) j)
        + ∑ r : Fin 1024, (∑ k : Fin 784, x (ix2 r k) * w (ix2 k j)) * (∑ k : Fin 784, x (ix2 r k) * w (ix2 k j)) := by
  unfold k0_pay5
  rw [shapeCast_self]
  refine (addf_apply _ _ _).trans (congrArg (acc (ix3 (0 : Fin 1) (0 : Fin 1) j) + ·) ?_)
  refine (colsum_apply _ j).trans (Finset.sum_congr rfl fun r _ => ?_)
  refine (mulf_apply _ _ _).trans ?_
  rw [prod_apply x w r j]

/-- The reset stores the zero word on every lane: the extended real `0`. -/
theorem zero2_apply (i : S1x1x1024.Idx) : k0_pay1 (F := Ideal) i = 0 := Ideal.ofBits_zero_f32
theorem zero3_apply (i : S1x1x1024.Idx) : k0_pay2 (F := Ideal) i = 0 := Ideal.ofBits_zero_f32

end Cert.KernelIdeal.Stats

end
-- ==== Proof.Stats.lean ====
/-
  The statistics region as a whole: its two results are the partial column sums of `h = x · sign(w1)ᵀ` and of `h²`.

  The 65536 rows of `x` are cut into 2 halves of 32 blocks of 1024 rows. The region visits the 64 blocks in order; grid
  point `t = 32 q + s` holds block `s` of half `q` (rows `1024 t … 1024 t + 1023`) and the whole matrix `sign(w1)ᵀ`. Each
  half has its own pair of accumulator blocks of 1024 lanes, zeroed at the half's first point, added into at every
  point, and written to row `q` of the two `[2, 1, 1024]` results when the half's last point is done.

  The argument, in order:
    * where each block sits in its array (the index maps, decided over the 64 points), so that an entry of a held
      block is an entry of `x` or of the weight matrix;
    * what one point adds to lane `j`: `Σ_r h(1024 t + r, j)`, and the same with `h²`;
    * the invariant, by induction inside a half: after point `32 q + m` the accumulators hold blocks `0 … m` of half `q`;
    * at `m = 31` that is the half's partial sum; it is what the write-back moves to row `q`, and the two write-backs
      cover the result; so the results are the partial sums, entry by entry.
  Sums over the extended reals form a commutative monoid, which is all that is used: no entry needs to be finite.
-/
import proofs.«142414_j9869834846708_2_alg».proof.Proof.Gen.KernelIdeal.Frame
import proofs.«142414_j9869834846708_2_alg».proof.Proof.Spec
import proofs.«142414_j9869834846708_2_alg».proof.Proof.StatsPieces
import proofs.«142414_j9869834846708_2_alg».proof.Proof.StatsPayload
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Stats

open Cert.KernelIdeal Cert.KernelIdeal.Gen

/- The buffers' contents when the region is entered: `V c main_arg0` is `x`, `V c main_v1` is `sign(w1)ᵀ`. -/
variable (V : (c : Dev nD) → (b : Ref sig .tc) → Buf (Elt Ideal) ((c : Thread nD τ).loc b))

/-! ## Where the blocks sit -/

/-- Where each window's block sits, decided once over the 64 grid points: the block of `x` at point `t` is block `t` of
    1024 rows; the weight matrix is one block; the accumulators' block is the half, `t / 32`. -/
theorem xidx : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem widx : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem aidx2 : ∀ t : Fin cfg0.N, win0_2.index t (0 : Fin 3) = t.val / 32 ∧ win0_2.index t (1 : Fin 3) = 0 ∧ win0_2.index t (2 : Fin 3) = 0 :=
  (by decide +kernel : ∀ t : Fin grid0.N, win0_2.index t (0 : Fin 3) = t.val / 32 ∧ win0_2.index t (1 : Fin 3) = 0 ∧ win0_2.index t (2 : Fin 3) = 0)
theorem aidx3 : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)

/-- The two input blocks held at point `t`, named with their literal shapes: 1024 rows of `x`, and the weight matrix. -/
abbrev xblk (c : Dev nD) (t : Fin cfg0.N) : Vec Ideal S1024x784 .f32 := iblk0 V c 0 t
abbrev wblk (c : Dev nD) (t : Fin cfg0.N) : Vec Ideal S784x1024 .f32 := iblk0 V c 1 t

/-- The block of `x` at point `t`, at `(r, k)`, is `x` at row `1024 t + r`, column `k`. -/
theorem xblk_apply (c : Dev nD) (t : Fin cfg0.N) (r : Fin 1024) (k : Fin 784) (b : Fin 65536)
    (hb : b.val = t.val * 1024 + r.val) :
    xblk V c t (ix2 r k) = (V c main_arg0 : S65536x784.Idx → EReal) (ix2 b k) := by
  have hi := xidx t
  unfold xblk iblk0
  rw [View.read_apply]
  show V c main_arg0 _ = V c main_arg0 _
  refine congrArg _ (funext fun a => Fin.ext ?_)
  match a with
  | ⟨0, _⟩ => show win0_0.index t (0 : Fin 2) * 1024 + 1 * r.val = b.val; rw [hi.1, hb]; omega
  | ⟨1, _⟩ => show win0_0.index t (1 : Fin 2) * 784 + 1 * k.val = k.val; rw [hi.2]; omega

/-- The block of the weight matrix is the matrix. -/
theorem wblk_apply (c : Dev nD) (t : Fin cfg0.N) (k : Fin 784) (j : Fin 1024) :
    wblk V c t (ix2 k j) = (V c main_v1 : S784x1024.Idx → EReal) (ix2 k j) := by
  have hi := widx t
  unfold wblk iblk0
  rw [View.read_apply]
  show V c main_v1 _ = V c main_v1 _
  refine congrArg _ (funext fun a => Fin.ext ?_)
  match a with
  | ⟨0, _⟩ => show win0_1.index t (0 : Fin 2) * 784 + 1 * k.val = k.val; rw [hi.1]; omega
  | ⟨1, _⟩ => show win0_1.index t (1 : Fin 2) * 1024 + 1 * j.val = j.val; rw [hi.2]; omega

/-! ## What one grid point adds

Point `32 q + s` of half `q` holds block `s` of that half's rows. Its contribution to lane `j` of the first accumulator is
the sum over the block's 1024 rows of the product's entry in column `j`; to the second, the sum of the squares. -/

/-- Block `s` (read modulo 32, so that it is defined at every natural) of half `q`: the sum of column `j` of the product
    over the block's rows, -/
def blockSum (X : FVec Ideal Spec.SX .f32) (Wt : FVec Ideal Spec.SW1t .f32) (q : Fin 2) (s : ℕ) (j : Fin 1024) : EReal :=
  ∑ r : Fin 1024, Spec.mm X Wt (Spec.row q ⟨s % 32, Nat.mod_lt _ (by decide)⟩ r) j
/-- and of its squares. -/
def blockSumSq (X : FVec Ideal Spec.SX .f32) (Wt : FVec Ideal Spec.SW1t .f32) (q : Fin 2) (s : ℕ) (j : Fin 1024) : EReal :=
  ∑ r : Fin 1024, Spec.mm X Wt (Spec.row q ⟨s % 32, Nat.mod_lt _ (by decide)⟩ r) j
    * Spec.mm X Wt (Spec.row q ⟨s % 32, Nat.mod_lt _ (by decide)⟩ r) j

/-- Entry `(r, j)` of the product of the blocks held at point `t = 32 q + s` is the whole product's entry at row
    `(32 q + s) · 1024 + r`: the block of `x` holds those rows, and the weight matrix is held whole. -/
theorem prod_at (c : Dev nD) (t : Fin cfg0.N) (q : Fin 2) (s : ℕ) (hs : s < 32) (ht : t.val = q.val * 32 + s)
    (r j : Fin 1024) :
    ∑ k : Fin 784, xblk V c t (ix2 r k) * wblk V c t (ix2 k j)
      = Spec.mm (V c main_arg0) (V c main_v1) (Spec.row q ⟨s % 32, Nat.mod_lt _ (by decide)⟩ r) j := by
  unfold Spec.mm
  refine Finset.sum_congr rfl fun k _ => ?_
  rw [xblk_apply V c t r k (Spec.row q ⟨s % 32, Nat.mod_lt _ (by decide)⟩ r)
      (by show (q.val * 32 + s % 32) * 1024 + r.val = t.val * 1024 + r.val; rw [Nat.mod_eq_of_lt hs, ht]),
    wblk_apply V c t k j]

/-- So the column sums the body forms at point `32 q + s` are block `s` of half `q`'s, -/
theorem sum_at (c : Dev nD) (t : Fin cfg0.N) (q : Fin 2) (s : ℕ) (hs : s < 32) (ht : t.val = q.val * 32 + s) (j : Fin 1024) :
    ∑ r : Fin 1024, ∑ k : Fin 784, xblk V c t (ix2 r k) * wblk V c t (ix2 k j)
      = blockSum (V c main_arg0) (V c main_v1) q s j :=
  Finset.sum_congr rfl fun r _ => prod_at V c t q s hs ht r j
/-- and likewise the column sums of squares. -/
theorem sumsq_at (c : Dev nD) (t : Fin cfg0.N) (q : Fin 2) (s : ℕ) (hs : s < 32) (ht : t.val = q.val * 32 + s) (j : Fin 1024) :
    ∑ r : Fin 1024, (∑ k : Fin 784, xblk V c t (ix2 r k) * wblk V c t (ix2 k j))
        * (∑ k : Fin 784, xblk V c t (ix2 r k) * wblk V c t (ix2 k j))
      = blockSumSq (V c main_arg0) (V c main_v1) q s j :=
  Finset.sum_congr rfl fun r _ => by rw [prod_at V c t q s hs ht r j]

/-! ## The accumulators after each point -/

/-- THE INVARIANT. After point `32 q + m` (`m < 32`) lane `j` of the first accumulator holds the sum of blocks
    `0 … m` of half `q`, and of the second the sum of their squares. By induction on `m`: the first point of the half
    stores zero and adds block 0 (`0 + s = s`); point `m + 1` is not a first point, so it adds block `m + 1` to what point
    `m` left. -/
theorem acc_inv (c : Dev nD) (q : Fin 2) : ∀ (m n : ℕ) (h : n < cfg0.N), n = q.val * 32 + m → m < 32 → ∀ j : Fin 1024,
    (outsAt0 V c n h).1 (ix3 (0 : Fin 1) (0 : Fin 1) j) = ∑ s ∈ Finset.range (m + 1), blockSum (V c main_arg0) (V c main_v1) q s j
    ∧ (outsAt0 V c n h).2 (ix3 (0 : Fin 1) (0 : Fin 1) j) = ∑ s ∈ Finset.range (m + 1), blockSumSq (V c main_arg0) (V c main_v1) q s j
  | 0, n, h, hn, _, j => by
    have h0 : (⟨n, h⟩ : Fin cfg0.N).val % 32 = 0 := by show n % 32 = 0; omega
    rw [outsAt0_A V c ⟨n, h⟩ h0]
    dsimp only
    rw [Finset.sum_range_one, Finset.sum_range_one, out_A_2, out_A_3, sum_step_apply, sumsq_step_apply, zero2_apply,
      zero3_apply, zero_add, zero_add]
    exact ⟨sum_at V c ⟨n, h⟩ q 0 (by decide) hn j, sumsq_at V c ⟨n, h⟩ q 0 (by decide) hn j⟩
  | m + 1, n, h, hn, hm, j => by
    have hB : ¬(⟨n, h⟩ : Fin cfg0.N).val % 32 = 0 := by show ¬n % 32 = 0; omega
    have ih := acc_inv c q m (n - 1) (Nat.lt_of_le_of_lt (Nat.sub_le _ _) h) (by omega) (by omega) j
    rw [outsAt0_B V c ⟨n, h⟩ hB]
    dsimp only
    rw [out_B_2, out_B_3, sum_step_apply, sumsq_step_apply, Finset.sum_range_succ _ (m + 1),
      Finset.sum_range_succ _ (m + 1), ih.1, ih.2]
    exact ⟨congrArg (_ + ·) (sum_at V c ⟨n, h⟩ q (m + 1) hm hn j), congrArg (_ + ·) (sumsq_at V c ⟨n, h⟩ q (m + 1) hm hn j)⟩

/-! ## The two result arrays -/

/-- The 32 blocks of a half, added up, are the half's partial sum. -/
theorem half_sum (X : FVec Ideal Spec.SX .f32) (Wt : FVec Ideal Spec.SW1t .f32) (q : Fin 2) (j : Fin 1024) :
    ∑ s ∈ Finset.range 32, blockSum X Wt q s j = Spec.partSum X Wt q j := by
  unfold Spec.partSum blockSum
  rw [Finset.sum_range]
  refine Finset.sum_congr rfl fun i _ => Finset.sum_congr rfl fun r _ => ?_
  exact congrArg (fun i' => Spec.mm X Wt (Spec.row q i' r) j) (Fin.ext (Nat.mod_eq_of_lt i.isLt))
theorem half_sumsq (X : FVec Ideal Spec.SX .f32) (Wt : FVec Ideal Spec.SW1t .f32) (q : Fin 2) (j : Fin 1024) :
    ∑ s ∈ Finset.range 32, blockSumSq X Wt q s j = Spec.partSumSq X Wt q j := by
  unfold Spec.partSumSq blockSumSq
  rw [Finset.sum_range]
  refine Finset.sum_congr rfl fun i _ => Finset.sum_congr rfl fun r _ => ?_
  exact congrArg (fun i' => Spec.mm X Wt (Spec.row q i' r) j * Spec.mm X Wt (Spec.row q i' r) j)
    (Fin.ext (Nat.mod_eq_of_lt i.isLt))

/-- What the region's two `[2, 1, 1024]` results end holding, as functions of `x` and the weight matrix: at `(q, 0, j)` the
    partial sum of half `q` in column `j`, and the partial sum of squares. -/
def sumArr (X : FVec Ideal Spec.SX .f32) (Wt : FVec Ideal Spec.SW1t .f32) : S2x1x1024.Idx → EReal :=
  fun i => Spec.partSum X Wt (i 0) (i 2)
def sumSqArr (X : FVec Ideal Spec.SX .f32) (Wt : FVec Ideal Spec.SW1t .f32) : S2x1x1024.Idx → EReal :=
  fun i => Spec.partSumSq X Wt (i 0) (i 2)

/-- AT THE LAST POINT OF A HALF (`t ≡ 31 mod 32`) the accumulators hold all 32 blocks of half `t / 32`: lane `y₂` of each is
    the result array's entry at any index `i` with `i₀ = t / 32` and `i₂ = y₂`. -/
theorem acc_last (c : Dev nD) (t : Fin cfg0.N) (h31 : t.val % 32 = 31) (y : S1x1x1024.Idx) (i : S2x1x1024.Idx)
    (hi0 : (i 0).val = t.val / 32) (hi2 : (i 2).val = (y 2).val) :
    (outsAt0 V c t.val t.isLt).1 y = sumArr (V c main_arg0) (V c main_v1) i
    ∧ (outsAt0 V c t.val t.isLt).2 y = sumSqArr (V c main_arg0) (V c main_v1) i := by
  have hN : t.val < 64 := lt_of_lt_of_eq t.isLt N_0
  obtain ⟨a, b, j, rfl⟩ : ∃ (a b : Fin 1) (j : Fin 1024), y = ix3 a b j := ⟨y 0, y 1, y 2, eq_ix3 y⟩
  obtain rfl : a = 0 := Subsingleton.elim _ _
  obtain rfl : b = 0 := Subsingleton.elim _ _
  have hq : t.val / 32 < 2 := by omega
  have inv := acc_inv V c ⟨t.val / 32, hq⟩ 31 t.val t.isLt (by show t.val = t.val / 32 * 32 + 31; omega) (by decide) j
  have e0 : (i 0 : Fin 2) = ⟨t.val / 32, hq⟩ := Fin.ext hi0
  have e2 : (i 2 : Fin 1024) = j := Fin.ext hi2
  rw [inv.1, inv.2, half_sum, half_sumsq]
  exact ⟨(congrArg₂ (Spec.partSum (V c main_arg0) (V c main_v1)) e0 e2).symm,
    (congrArg₂ (Spec.partSumSq (V c main_arg0) (V c main_v1)) e0 e2).symm⟩

/-- WHAT IS WRITTEN BACK. The accumulators' block is written to the results only when the half ends, at the points
    `t ≡ 31 mod 32`; what is written is block `(t / 32, 0, 0)` of `sumArr` (of `sumSqArr`): element `y` of the block sits in
    the array at `(t / 32 + y₀, y₁, y₂)` with `y₀ = y₁ = 0`. -/
theorem flushed2_eq (c : Dev nD) (t : Fin cfg0.N) (hf : (cfg0.win 2).flush t = true) :
    (dat0 V c).flushed 2 t = ((cfg0.win 2).blk t).view.read (Elt Ideal) (sumArr (V c main_arg0) (V c main_v1)) := by
  have h31 : t.val % 32 = 31 := (flush0_2 t).mp hf
  have hi := aidx2 t
  show (cfg0.win 2).cut (grid0.coords t) ((dat0 V c).after 2 t) = _
  rw [after0_2]
  funext y
  show (outsAt0 V c t.val t.isLt).1 y = sumArr (V c main_arg0) (V c main_v1) (((cfg0.win 2).blk t).view.emb y)
  refine (acc_last V c t h31 y _ ?_ ?_).1
  · show win0_2.index t (0 : Fin 3) * 1 + 1 * (y 0).val = t.val / 32
    have hy : (y 0).val < 1 := (y 0).isLt
    rw [hi.1]; omega
  · show win0_2.index t (2 : Fin 3) * 1024 + 1 * (y 2).val = (y 2).val
    rw [hi.2.2]; omega
theorem flushed3_eq (c : Dev nD) (t : Fin cfg0.N) (hf : (cfg0.win 3).flush t = true) :
    (dat0 V c).flushed 3 t = ((cfg0.win 3).blk t).view.read (Elt Ideal) (sumSqArr (V c main_arg0) (V c main_v1)) := by
  have h31 : t.val % 32 = 31 := (flush0_3 t).mp hf
  have hi := aidx3 t
  show (cfg0.win 3).cut (grid0.coords t) ((dat0 V c).after 3 t) = _
  rw [after0_3]
  funext y
  show (outsAt0 V c t.val t.isLt).2 y = sumSqArr (V c main_arg0) (V c main_v1) (((cfg0.win 3).blk t).view.emb y)
  refine (acc_last V c t h31 y _ ?_ ?_).2
  · show win0_3.index t (0 : Fin 3) * 1 + 1 * (y 0).val = t.val / 32
    have hy : (y 0).val < 1 := (y 0).isLt
    rw [hi.1]; omega
  · show win0_3.index t (2 : Fin 3) * 1024 + 1 * (y 2).val = (y 2).val
    rw [hi.2.2]; omega

/-- EVERY ENTRY IS WRITTEN. Entry `(q, 0, j)` of a result lies in the block written back at the last point of half `q`,
    `t = 32 q + 31`: that block is row `q` of the array, all 1024 lanes. -/
theorem cover2 (i : S2x1x1024.Idx) :
    ∃ t : Fin cfg0.N, (cfg0.win 2).flush t = true ∧ i ∈ ((cfg0.win 2).blk t).view.set := by
  have hN : cfg0.N = 64 := N_0
  have h0 : (i 0).val < 2 := (i 0).isLt
  have h1 : (i 1).val < 1 := (i 1).isLt
  have h2 : (i 2).val < 1024 := (i 2).isLt
  obtain ⟨t, ht⟩ : ∃ t : Fin cfg0.N, t.val = (i 0).val * 32 + 31 := ⟨⟨(i 0).val * 32 + 31, by omega⟩, rfl⟩
  have hi := aidx2 t
  refine ⟨t, (flush0_2 t).mpr (by omega), ?_⟩
  show i ∈ ((View.whole main_v6_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [hi.1]; omega
  | ⟨1, _⟩ =>
    show win0_2.index t (1 : Fin 3) * 1 ≤ (i 1).val ∧ (i 1).val < win0_2.index t (1 : Fin 3) * 1 + 1
    rw [hi.2.1]; omega
  | ⟨2, _⟩ =>
    show win0_2.index t (2 : Fin 3) * 1024 ≤ (i 2).val ∧ (i 2).val < win0_2.index t (2 : Fin 3) * 1024 + 1024
    rw [hi.2.2]; omega
theorem cover3 (i : S2x1x1024.Idx) :
    ∃ t : Fin cfg0.N, (cfg0.win 3).flush t = true ∧ i ∈ ((cfg0.win 3).blk t).view.set := by
  have hN : cfg0.N = 64 := N_0
  have h0 : (i 0).val < 2 := (i 0).isLt
  have h1 : (i 1).val < 1 := (i 1).isLt
  have h2 : (i 2).val < 1024 := (i 2).isLt
  obtain ⟨t, ht⟩ : ∃ t : Fin cfg0.N, t.val = (i 0).val * 32 + 31 := ⟨⟨(i 0).val * 32 + 31, by omega⟩, rfl⟩
  have hi := aidx3 t
  refine ⟨t, (flush0_3 t).mpr (by omega), ?_⟩
  show i ∈ ((View.whole main_v6_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [hi.1]; omega
  | ⟨1, _⟩ =>
    show win0_3.index t (1 : Fin 3) * 1 ≤ (i 1).val ∧ (i 1).val < win0_3.index t (1 : Fin 3) * 1 + 1
    rw [hi.2.1]; omega
  | ⟨2, _⟩ =>
    show win0_3.index t (2 : Fin 3) * 1024 ≤ (i 2).val ∧ (i 2).val < win0_3.index t (2 : Fin 3) * 1024 + 1024
    rw [hi.2.2]; omega

/-- So after the region the first result is `sumArr` and the second `sumSqArr` of the arrays the region was entered
    with: every write-back writes a block of that one function, and the write-backs cover the array. -/
theorem sum_final (c : Dev nD) : (dat0 V c).arrAt 2 cfg0.N = sumArr (V c main_arg0) (V c main_v1) :=
  (dat0 V c).arrAt_eq_of_cover 2 (sumArr (V c main_arg0) (V c main_v1)) (fun t hf => flushed2_eq V c t hf) cover2
theorem sumsq_final (c : Dev nD) : (dat0 V c).arrAt 3 cfg0.N = sumSqArr (V c main_arg0) (V c main_v1) :=
  (dat0 V c).arrAt_eq_of_cover 3 (sumSqArr (V c main_arg0) (V c main_v1)) (fun t hf => flushed3_eq V c t hf) cover3

/-- THE REGION'S TWO RESULTS, entry by entry: at `(q, 0, j)` the sum over half `q`'s 32 blocks of 1024 rows of column
    `j` of `x · sign(w1)ᵀ`, and the sum of its squares. -/
theorem sum_arr (c : Dev nD) (cc : Fin 2) (j : Fin 1024) :
    (dat0 V c).arrAt 2 cfg0.N (ix3 cc (0 : Fin 1) j) = Spec.partSum (V c main_arg0) (V c main_v1) cc j :=
  congrFun (sum_final V c) (ix3 cc (0 : Fin 1) j)
theorem sumsq_arr (c : Dev nD) (cc : Fin 2) (j : Fin 1024) :
    (dat0 V c).arrAt 3 cfg0.N (ix3 cc (0 : Fin 1) j) = Spec.partSumSq (V c main_arg0) (V c main_v1) cc j :=
  congrFun (sumsq_final V c) (ix3 cc (0 : Fin 1) j)

end Cert.KernelIdeal.Stats

end
-- ==== Proof.ApplyBody.lean ====
/-
  The second region's body, read at one entry of the block it stores.

  The body is handed a block `x0` of 1024 rows of the input (784 columns), the whole `[784, 1024]` matrix `x1`, two
  rows `x2` (scale) and `x3` (shift) of 1024 entries each, and the `[1024, 128]` matrix `x4`. It forms the product
  `h = x0 · x1` (1024 × 1024, every entry a sum of 784 terms), sends every entry through the affine map of its column,
  `h(p, j) · x2(0, j) + x3(0, j)`, takes the sign, and multiplies the `[1024, 1024]` array of signs with `x4`. Over the
  extended reals every operation is exact, so entry `(p, n)` of what the body stores is

      Σⱼ sign ((Σₖ x0(p, k) · x1(k, j)) · x2(0, j) + x3(0, j)) · x4(j, n).

  This module proves exactly that (`body_apply`). Its ingredients: a matrix product into the zero accumulator, read at
  an entry, is the sum over the contracted axis (`hid_apply`, `out_apply`); the nested select that the sign is written
  as is the sign function (`sign_apply`); a cast between equal shapes changes nothing; one row broadcast down 1024 rows
  reads that row; and the narrowing of the signs to sixteen bits is the identity on extended reals.
-/
import proofs.«142414_j9869834846708_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Apply

open Idealize.ShloMosaic Idealize.ShloMosaic.ValueIdx
open Cert.KernelIdeal Cert.KernelIdeal.Gen

/-! ## The two products, read at an entry

A product of an `[a, K]` matrix with a `[K, b]` one contracts the left factor's axis 1 with the right factor's axis 0.
Its dimension record sends an output index `i` and a contraction index `q` to one index of each factor; opened one axis
at a time, a free axis keeps the output's coordinate and the contracted axis takes `q`'s one coordinate. With those
four equations the product into the zero accumulator, at `(p, j)`, is `Σₖ left(p, k) · right(k, j)`: the library's sum
over the record's contraction indices, re-indexed by the bijection between them and `Fin K`. -/

/-- First product, left factor: its row is the output's row. -/
theorem hid_lhs_row (i : S1024x1024.Idx) (q : dot_S1024x784_S784x1024_S1024x1024_1_0_0_1_n_n.contr.Idx) :
    (dot_S1024x784_S784x1024_S1024x1024_1_0_0_1_n_n.lhsIdx i q 0).val = (i 0).val := by
  unfold DotDims.lhsIdx
  rw [dif_neg (show ¬(0 : Fin S1024x784.rank) ∈ dot_S1024x784_S784x1024_S1024x1024_1_0_0_1_n_n.lhsBatch by decide),
    dif_pos (show (0 : Fin S1024x784.rank) ∈ dot_S1024x784_S784x1024_S1024x1024_1_0_0_1_n_n.lhsNonContracting by decide)]
  rfl
/-- First product, left factor: its column is the summation variable. -/
theorem hid_lhs_col (i : S1024x1024.Idx) (q : dot_S1024x784_S784x1024_S1024x1024_1_0_0_1_n_n.contr.Idx) :
    (dot_S1024x784_S784x1024_S1024x1024_1_0_0_1_n_n.lhsIdx i q 1).val = (q ⟨0, by decide⟩).val :=
  dot_S1024x784_S784x1024_S1024x1024_1_0_0_1_n_n.lhsIdx_val_of_single rfl i q
/-- First product, right factor: its row is the summation variable. -/
theorem hid_rhs_row (i : S1024x1024.Idx) (q : dot_S1024x784_S784x1024_S1024x1024_1_0_0_1_n_n.contr.Idx) :
    (dot_S1024x784_S784x1024_S1024x1024_1_0_0_1_n_n.rhsIdx i q 0).val = (q ⟨0, by decide⟩).val :=
  dot_S1024x784_S784x1024_S1024x1024_1_0_0_1_n_n.rhsIdx_val_of_single rfl i q
/-- First product, right factor: its column is the output's column. -/
theorem hid_rhs_col (i : S1024x1024.Idx) (q : dot_S1024x784_S784x1024_S1024x1024_1_0_0_1_n_n.contr.Idx) :
    (dot_S1024x784_S784x1024_S1024x1024_1_0_0_1_n_n.rhsIdx i q 1).val = (i 1).val := by
  unfold DotDims.rhsIdx
  rw [dif_neg (show ¬(1 : Fin S784x1024.rank) ∈ dot_S1024x784_S784x1024_S1024x1024_1_0_0_1_n_n.rhsBatch by decide),
    dif_pos (show (1 : Fin S784x1024.rank) ∈ dot_S1024x784_S784x1024_S1024x1024_1_0_0_1_n_n.rhsNonContracting by decide)]
  rfl

/-- THE FIRST PRODUCT AT `(p, j)`: `Σₖ a(p, k) · b(k, j)` over the 784 columns of `a`. The accumulator is the zero
    array, so nothing is added to the sum. -/
theorem hid_apply (a : FVec Ideal S1024x784 .f32) (b : FVec Ideal S784x1024 .f32) (p j : Fin 1024) :
    matmul dot_S1024x784_S784x1024_S1024x1024_1_0_0_1_n_n (some .fp32) a b (constant S1024x1024 .f32 0x00000000#32) (ix2 p j)
      = ∑ k : Fin 784, a (ix2 p k) * b (ix2 k j) := by
  simp only [matmul]
  -- the sum over the record's contraction indices, then over `Fin 784` through the bijection between the two
  rw [Ideal.matmul_constant_zero_apply,
    ← Equiv.sum_comp (contrEquiv1 dot_S1024x784_S784x1024_S1024x1024_1_0_0_1_n_n 784 rfl rfl).symm]
  refine Finset.sum_congr rfl fun k _ => ?_
  -- the contraction index that `k` names has `k` as its one coordinate
  have hk := contrEquiv1_symm_val dot_S1024x784_S784x1024_S1024x1024_1_0_0_1_n_n 784 rfl rfl k
  -- so the left factor is read at (p, k) …
  have el : dot_S1024x784_S784x1024_S1024x1024_1_0_0_1_n_n.lhsIdx (ix2 p j)
      ((contrEquiv1 dot_S1024x784_S784x1024_S1024x1024_1_0_0_1_n_n 784 rfl rfl).symm k) = ix2 p k :=
    funext fun ax => Fin.ext (by
      match ax with
      | ⟨0, _⟩ => exact hid_lhs_row _ _
      | ⟨1, _⟩ => exact (hid_lhs_col _ _).trans hk)
  -- … and the right factor at (k, j)
  have er : dot_S1024x784_S784x1024_S1024x1024_1_0_0_1_n_n.rhsIdx (ix2 p j)
      ((contrEquiv1 dot_S1024x784_S784x1024_S1024x1024_1_0_0_1_n_n 784 rfl rfl).symm k) = ix2 k j :=
    funext fun ax => Fin.ext (by
      match ax with
      | ⟨0, _⟩ => exact (hid_rhs_row _ _).trans hk
      | ⟨1, _⟩ => exact hid_rhs_col _ _)
  rw [el, er]

/-- Second product, left factor: its row is the output's row. -/
theorem out_lhs_row (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
/-- Second product, left factor: its column is the summation variable. -/
theorem out_lhs_col (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
/-- Second product, right factor: its row is the summation variable. -/
theorem out_rhs_row (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
/-- Second product, right factor: its column is the output's column. -/
theorem out_rhs_col (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- THE SECOND PRODUCT AT `(p, n)`: `Σⱼ a(p, j) · b(j, n)` over the 1024 hidden columns, by the same four steps. -/
theorem out_apply (a : FVec Ideal S1024x1024 .bf16) (b : FVec Ideal S1024x128 .bf16) (p : Fin 1024) (n : Fin 128) :
    matmul dot_S1024x1024_S1024x128_S1024x128_1_0_0_1_n_n none a b (constant S1024x128 .f32 0x00000000#32) (ix2 p n)
      = ∑ j : Fin 1024, a (ix2 p j) * b (ix2 j n) := by
  simp only [matmul]
  rw [Ideal.matmul_constant_zero_apply,
    ← Equiv.sum_comp (contrEquiv1 dot_S1024x1024_S1024x128_S1024x128_1_0_0_1_n_n 1024 rfl rfl).symm]
  refine Finset.sum_congr rfl fun j _ => ?_
  have hj := contrEquiv1_symm_val dot_S1024x1024_S1024x128_S1024x128_1_0_0_1_n_n 1024 rfl rfl j
  have el : dot_S1024x1024_S1024x128_S1024x128_1_0_0_1_n_n.lhsIdx (ix2 p n)
      ((contrEquiv1 dot_S1024x1024_S1024x128_S1024x128_1_0_0_1_n_n 1024 rfl rfl).symm j) = ix2 p j :=
    funext fun ax => Fin.ext (by
      match ax with
      | ⟨0, _⟩ => exact out_lhs_row _ _
      | ⟨1, _⟩ => exact (out_lhs_col _ _).trans hj)
  have er : dot_S1024x1024_S1024x128_S1024x128_1_0_0_1_n_n.rhsIdx (ix2 p n)
      ((contrEquiv1 dot_S1024x1024_S1024x128_S1024x128_1_0_0_1_n_n 1024 rfl rfl).symm j) = ix2 j n :=
    funext fun ax => Fin.ext (by
      match ax with
      | ⟨0, _⟩ => exact (out_rhs_row _ _).trans hj
      | ⟨1, _⟩ => exact out_rhs_col _ _)
  rw [el, er]

/-! ## The sign -/

/-- The sign is written as two nested selects: where `|x| > 0` fails (only at `x = 0`) keep `x`, which is `0`;
    elsewhere `-1` if `x < 0` and `1` if not. On the extended reals that is the sign function at every entry:
    `-1` below zero (at `⊥` too), `1` above (at `⊤` too), `0` at zero. -/
theorem sign_apply (v : FVec Ideal S1024x1024 .f32) (i : S1024x1024.Idx) :
    select (cmpf .ogt (absf v) (broadcast S1024x1024 (Scalar.ofBits .f32 0x00000000#32)))
        (select (cmpf .olt v (constant S1024x1024 .f32 0x00000000#32)) (constant S1024x1024 .f32 0xBF800000#32)
          (constant S1024x1024 .f32 0x3F800000#32)) v i
      = Ideal.sign (v i) :=
  Ideal.jnp_sign_eq_sign_f32 (v i)

/-! ## The body at an entry -/

/-- THE BODY AT `(p, n)`: `Σⱼ sign ((Σₖ x0(p, k) · x1(k, j)) · x2(0, j) + x3(0, j)) · x4(j, n)`. Read from the outside
    in: the second product's sum over the hidden columns `j`; its right factor is `x4` under a cast between equal
    shapes; its left factor at `(p, j)` is the sign (narrowed to sixteen bits, which changes no extended real) of the
    sum of two arrays at `(p, j)`: the product of the first matrix product with the scale row broadcast down the rows,
    and the shift row broadcast down the rows. -/
theorem body_apply (x0 : FVec Ideal S1024x784 .f32) (x1 : FVec Ideal S784x1024 .f32)
    (x2 x3 : FVec Ideal S1x1024 .f32) (x4 : FVec Ideal S1024x128 .bf16) (p : Fin 1024) (n : Fin 128) :
    k1_pay1 (F := Ideal) x0 x1 x2 x3 x4 (ix2 p n)
      = ∑ j : Fin 1024, Ideal.sign ((∑ k : Fin 784, x0 (ix2 p k) * x1 (ix2 k j)) * x2 (ix2 0 j) + x3 (ix2 0 j))
          * x4 (ix2 j n) := by
  unfold k1_pay1
  -- the second product at (p, n): the sum over j of its left factor at (p, j) times its right factor at (j, n)
  refine (out_apply _ _ p n).trans (Finset.sum_congr rfl fun j _ => ?_)
  -- the left factor is the narrowed sign, the right factor is x4 itself
  refine congrArg₂ (· * ·)
    ((truncf_apply (ψ := .bf16) _ bitsLt_bf16_f32 (ix2 p j)).trans
      ((sign_apply _ (ix2 p j)).trans (congrArg Ideal.sign ?_)))
    (congrFun (shapeCast_self x4 _) (ix2 j n))
  -- under the sign, at (p, j): (first product) · (scale row) + (shift row)
  refine (addf_apply _ _ (ix2 p j)).trans
    (congrArg₂ (· + ·) ((mulf_apply _ _ (ix2 p j)).trans (congrArg₂ (· * ·) ?_ ?_)) ?_)
  · -- the first product's right factor is x1 under a cast between equal shapes
    rw [shapeCast_self]
    exact hid_apply x0 x1 p j
  · -- the scale row, repeated down the rows, read at (p, j) is the row at j
    rw [shapeCast_self]
    exact broadcastTo_1b_ab_apply x2 _ p j
  · -- and so is the shift row
    rw [shapeCast_self]
    exact broadcastTo_1b_ab_apply x3 _ p j

end Cert.KernelIdeal.Apply

end
-- ==== Proof.Apply.lean ====
/-
  The second region, from its blocks to the array it leaves.

  The region runs over 64 grid points. At point `t` the body is handed rows `t · 1024 … t · 1024 + 1023` of the
  `[65536, 784]` input, and the other four arrays whole: the `[784, 1024]` matrix, the scale row, the shift row and
  the `[1024, 128]` matrix. What the body stores is written back as rows `t · 1024 … t · 1024 + 1023` of the
  `[65536, 128]` output. The 64 row blocks tile the output, so after the run the output at `(b, n)` is what point
  `b / 1024` stored at row `b % 1024`: by the body read at an entry (Proof/ApplyBody.lean),

      Σⱼ sign ((Σₖ x(b, k) · w(k, j)) · scale(0, j) + shift(0, j)) · w2(j, n),

  which is the specification's `applyOut` of the five arrays as the region finds them (`out_arr`). Nothing is assumed
  of the five arrays: no sum is rearranged and nothing is cancelled, so entries may be infinite.

  The steps: where each window's block sits in its array, decided once over the 64 points (`block_index`); each
  input block read at an entry as the array at the matching entry (`rows_apply` … `proj_apply`); what point `t` writes
  back is block `t` of ONE whole-array function (`written_eq`); every row is in some point's block (`row_covered`);
  so the array ends as that function.
-/
import proofs.«142414_j9869834846708_2_alg».proof.Proof.Gen.KernelIdeal.Frame
import proofs.«142414_j9869834846708_2_alg».proof.Proof.Spec
import proofs.«142414_j9869834846708_2_alg».proof.Proof.ApplyBody
import Idealize.ShloMosaic.Lib.ValueIdx
import Idealize.ShloMosaic.Lib.Pipeline.Value

noncomputable section

namespace Cert.KernelIdeal.Apply

open Idealize.ShloMosaic Idealize.ShloMosaic.ValueIdx Idealize.ShloMosaic.TcCoe
open Cert.KernelIdeal Cert.KernelIdeal.Gen

-- The contents of the core's buffers when the region is entered: everything below holds for any such contents.
variable (V : (c : Dev nD) → (b : Ref sig .tc) → Buf (Elt Ideal) ((c : Thread nD τ).loc b))

/-- The body loads and stores whole blocks: every access starts at offset `(0, 0)`. -/
theorem zero_offsets : (![0, 0] : Fin 2 → Nat) = fun _ => 0 := funext fun a => by fin_cases a <;> rfl

/-! ## Where the blocks sit -/

/-- The block index of each window at grid point `t`, on each axis, decided over the 64 points: the input rows and
    the output rows move with the point (block `t` along the rows, block `0` along the columns); the other four arrays
    are one block each, at block `(0, 0)` whatever the point. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The input blocks, read at an entry

An entry of a block sits in the array, on each axis, at the block's index times the block's extent plus the entry's
own coordinate. With the block indices above: row `p` of the input's block `t` is row `t · 1024 + p` of the input,
and a block of one of the other arrays is the array. -/

/-- Row `p` of the input block at point `t` is row `b = t · 1024 + p` of the input. -/
theorem rows_apply (c : Dev nD) (t : Fin cfg1.N) (p : Fin 1024) (k : Fin 784) (b : Fin 65536)
    (hb : b.val = t.val * 1024 + p.val) :
    (iblk1 V c 0 t : FVec Ideal S1024x784 .f32) (ix2 p k) = (V c main_arg0 : FVec Ideal S65536x784 .f32) (ix2 b k) := by
  obtain ⟨e0, e1, -⟩ := block_index t
  unfold iblk1
  rw [View.read_apply]
  show V c main_arg0 (((cfg1.win 0).blk t).view.emb (ix2 p k)) = V c main_arg0 (ix2 b k)
  refine congrArg (V c main_arg0) (funext fun a => Fin.ext ?_)
  match a with
  | ⟨0, _⟩ => show win1_0.index t (0 : Fin 2) * 1024 + 1 * p.val = b.val; omega
  | ⟨1, _⟩ => show win1_0.index t (1 : Fin 2) * 784 + 1 * k.val = k.val; omega

/-- The `[784, 1024]` matrix's block at any point is the matrix. -/
theorem weights_apply (c : Dev nD) (t : Fin cfg1.N) (k : Fin 784) (j : Fin 1024) :
    (iblk1 V c 1 t : FVec Ideal S784x1024 .f32) (ix2 k j) = (V c main_v1 : FVec Ideal S784x1024 .f32) (ix2 k j) := by
  obtain ⟨-, -, e0, e1, -⟩ := block_index t
  unfold iblk1
  rw [View.read_apply]
  show V c main_v1 (((cfg1.win 1).blk t).view.emb (ix2 k j)) = V c main_v1 (ix2 k j)
  refine congrArg (V c main_v1) (funext fun a => Fin.ext ?_)
  match a with
  | ⟨0, _⟩ => show win1_1.index t (0 : Fin 2) * 784 + 1 * k.val = k.val; omega
  | ⟨1, _⟩ => show win1_1.index t (1 : Fin 2) * 1024 + 1 * j.val = j.val; omega

/-- The scale row's block at any point is the scale row. -/
theorem scale_apply (c : Dev nD) (t : Fin cfg1.N) (j : Fin 1024) :
    (iblk1 V c 2 t : FVec Ideal S1x1024 .f32) (ix2 0 j) = (V c main_v21 : FVec Ideal S1x1024 .f32) (ix2 0 j) := by
  obtain ⟨-, -, -, -, e0, e1, -⟩ := block_index t
  unfold iblk1
  rw [View.read_apply]
  show V c main_v21 (((cfg1.win 2).blk t).view.emb (ix2 0 j)) = V c main_v21 (ix2 0 j)
  refine congrArg (V c main_v21) (funext fun a => Fin.ext ?_)
  match a with
  | ⟨0, _⟩ => show win1_2.index t (0 : Fin 2) * 1 + 1 * 0 = 0; omega
  | ⟨1, _⟩ => show win1_2.index t (1 : Fin 2) * 1024 + 1 * j.val = j.val; omega

/-- The shift row's block at any point is the shift row. -/
theorem shift_apply (c : Dev nD) (t : Fin cfg1.N) (j : Fin 1024) :
    (iblk1 V c 3 t : FVec Ideal S1x1024 .f32) (ix2 0 j) = (V c main_v25 : FVec Ideal S1x1024 .f32) (ix2 0 j) := by
  obtain ⟨-, -, -, -, -, -, e0, e1, -⟩ := block_index t
  unfold iblk1
  rw [View.read_apply]
  show V c main_v25 (((cfg1.win 3).blk t).view.emb (ix2 0 j)) = V c main_v25 (ix2 0 j)
  refine congrArg (V c main_v25) (funext fun a => Fin.ext ?_)
  match a with
  | ⟨0, _⟩ => show win1_3.index t (0 : Fin 2) * 1 + 1 * 0 = 0; omega
  | ⟨1, _⟩ => show win1_3.index t (1 : Fin 2) * 1024 + 1 * j.val = j.val; omega

/-- The `[1024, 128]` matrix's block at any point is the matrix. -/
theorem proj_apply (c : Dev nD) (t : Fin cfg1.N) (j : Fin 1024) (n : Fin 128) :
    (iblk1 V c 4 t : FVec Ideal S1024x128 .bf16) (ix2 j n) = (V c main_v5 : FVec Ideal S1024x128 .bf16) (ix2 j n) := by
  obtain ⟨-, -, -, -, -, -, -, -, e0, e1, -⟩ := block_index t
  unfold iblk1
  rw [View.read_apply]
  show V c main_v5 (((cfg1.win 4).blk t).view.emb (ix2 j n)) = V c main_v5 (ix2 j n)
  refine congrArg (V c main_v5) (funext fun a => Fin.ext ?_)
  match a with
  | ⟨0, _⟩ => show win1_4.index t (0 : Fin 2) * 1024 + 1 * j.val = j.val; omega
  | ⟨1, _⟩ => show win1_4.index t (1 : Fin 2) * 128 + 1 * n.val = n.val; omega

/-! ## What every point writes back -/

/-- The array the region leaves, as ONE function of the five arrays it finds: at `(b, n)` the specification's
    `Σⱼ sign ((Σₖ x(b, k) · w(k, j)) · scale(0, j) + shift(0, j)) · w2(j, n)`. -/
def outArr (c : Dev nD) : S65536x128.Idx → EReal := fun i =>
  Cert.Spec.applyOut (V c main_arg0) (V c main_v1) (V c main_v21) (V c main_v25) (V c main_v5) (i 0) (i 1)

/-- WHAT POINT `t` WRITES BACK is block `t` of `outArr`. The body's one store fills its whole buffer with its value on
    the five input blocks; at entry `(p, n)` that value is the sum of Proof/ApplyBody.lean over the blocks' entries,
    each of which is the array's entry at row `b = t · 1024 + p` (or at the same place, for the four whole arrays);
    and `(p, n)` of the output's block `t` is `(b, n)` of the output. -/
theorem written_eq (c : Dev nD) (t : Fin cfg1.N) :
    (dat1 V c).flushed 5 t = ((cfg1.win 5).blk t).view.read (Elt Ideal) (outArr V c) := by
  show (cfg1.win 5).cut (grid1.coords t) ((dat1 V c).after 5 t) = _
  -- the buffer after the body: one store at offset (0, 0) of the body's value on whole-block loads
  rw [after1_5]
  unfold out1_5
  rw [View.canon_unit_zero zero_offsets]
  simp only [View.ld_unit_zero (S := S1024x784) zero_offsets, View.ld_unit_zero (S := S784x1024) zero_offsets,
    View.ld_unit_zero (S := S1x1024) zero_offsets, View.ld_unit_zero (S := S1024x128) zero_offsets]
  -- entry by entry
  funext y
  obtain ⟨p, n, rfl⟩ : ∃ (p : Fin 1024) (n : Fin 128), y = ix2 p n := ⟨y 0, y 1, eq_ix2 y⟩
  have hN : t.val < 64 := lt_of_lt_of_eq t.isLt N_1
  have hp : p.val < 1024 := p.isLt
  -- the row of the arrays that row p of block t is
  obtain ⟨b, hb⟩ : ∃ b : Fin 65536, b.val = t.val * 1024 + p.val := ⟨⟨t.val * 1024 + p.val, by omega⟩, rfl⟩
  obtain ⟨-, -, -, -, -, -, -, -, -, -, e0, e1⟩ := block_index t
  -- entry (p, n) of the output's block t is entry (b, n) of the output
  have hemb : ((cfg1.win 5).blk t).view.emb (ix2 p n) = (ix2 b n : S65536x128.Idx) := by
    funext a; apply Fin.ext
    match a with
    | ⟨0, _⟩ => show win1_5.index t (0 : Fin 2) * 1024 + 1 * p.val = b.val; omega
    | ⟨1, _⟩ => show win1_5.index t (1 : Fin 2) * 128 + 1 * n.val = n.val; omega
  show k1_pay1 (F := Ideal) (iblk1 V c 0 t) (iblk1 V c 1 t) (iblk1 V c 2 t) (iblk1 V c 3 t) (iblk1 V c 4 t) (ix2 p n)
    = outArr V c (((cfg1.win 5).blk t).view.emb (ix2 p n))
  rw [hemb]
  -- the body at (p, n), a sum over the blocks' entries, against the specification at (b, n), the same sum over the arrays'
  refine (body_apply _ _ _ _ _ p n).trans ?_
  show _ = Cert.Spec.applyOut (V c main_arg0) (V c main_v1) (V c main_v21) (V c main_v25) (V c main_v5) b n
  unfold Cert.Spec.applyOut Cert.Spec.mm
  -- term by term in j: the scale, the shift and the second matrix at column / row j …
  refine Finset.sum_congr rfl fun j _ => ?_
  rw [scale_apply V c t j, shift_apply V c t j, proj_apply V c t j n]
  -- … and term by term in k under the sign: the input's row b and the first matrix at (k, j)
  refine congrArg (fun s => Ideal.sign (s * _ + _) * _) (Finset.sum_congr rfl fun k _ => ?_)
  rw [rows_apply V c t p k b hb, weights_apply V c t k j]

/-! ## The blocks tile the output -/

/-- An entry of the output is in point `t`'s block iff each of its coordinates lies in the block's range on that axis. -/
theorem mem_block (t : Fin cfg1.N) (i : S65536x128.Idx) :
    i ∈ ((cfg1.win 5).blk t).view.set ↔ ∀ a : Fin 2, win1_5.index t a * S1024x128.size a ≤ (i a).val
      ∧ (i a).val < win1_5.index t a * S1024x128.size a + S1024x128.size a := by
  show i ∈ ((View.whole main_v26).slice (win1_5.rect t)).set ↔ _
  rw [View.set_slice_whole, Rect.mem_set_unit]
  exact Iff.rfl

/-- Every entry of the output is written back by some point: row `r` by point `r / 1024`, whose block is rows
    `(r / 1024) · 1024 … (r / 1024) · 1024 + 1023` and all 128 columns; and every point writes back. -/
theorem row_covered (i : S65536x128.Idx) :
    ∃ t : Fin cfg1.N, (cfg1.win 5).flush t = true ∧ i ∈ ((cfg1.win 5).blk t).view.set := by
  have hi0 : (i 0).val < 65536 := (i 0).isLt
  have hi1 : (i 1).val < 128 := (i 1).isLt
  obtain ⟨t, ht⟩ : ∃ t : Fin cfg1.N, t.val = (i 0).val / 1024 :=
    ⟨⟨(i 0).val / 1024, lt_of_lt_of_eq (by omega : (i 0).val / 1024 < 64) N_1.symm⟩, rfl⟩
  obtain ⟨-, -, -, -, -, -, -, -, -, -, e0, e1⟩ := block_index t
  refine ⟨t, flush1_5 t, ?_⟩
  rw [mem_block]
  intro a
  match a with
  | ⟨0, _⟩ =>
    show win1_5.index t (0 : Fin 2) * 1024 ≤ (i 0).val ∧ (i 0).val < win1_5.index t (0 : Fin 2) * 1024 + 1024
    omega
  | ⟨1, _⟩ =>
    show win1_5.index t (1 : Fin 2) * 128 ≤ (i 1).val ∧ (i 1).val < win1_5.index t (1 : Fin 2) * 128 + 128
    omega

/-! ## The array after the region -/

/-- THE OUTPUT AFTER THE REGION is `outArr`: every point writes back its block of that one function, and the blocks
    cover the array (a later write-back over the same entry would write the same value; here no two blocks meet). -/
theorem out_arr_eq (c : Dev nD) : (dat1 (F := Ideal) V c).arrAt 5 cfg1.N = outArr V c :=
  (dat1 V c).arrAt_eq_of_cover 5 (outArr V c) (fun t _ => written_eq V c t) row_covered

/-- The same at an entry: the output at `(b, n)` is the specification's `applyOut` of the five arrays the region
    finds, at `(b, n)`. -/
theorem out_arr (c : Dev nD) (b : Fin 65536) (n : Fin 128) :
    (dat1 (F := Ideal) V c).arrAt 5 cfg1.N (ix2 b n)
      = Cert.Spec.applyOut (V c main_arg0) (V c main_v1) (V c main_v21) (V c main_v25) (V c main_v5) b n :=
  congrFun (out_arr_eq V c) (ix2 b n)

end Cert.KernelIdeal.Apply

end
-- ==== Proof.Glue.lean ====
/-
  The kernel program's result as a function of its five arguments.

  Each region's result arrays are a function of the arrays it is handed (Proof/Stats.lean, Proof/Apply.lean), and each of
  those arrays is walked back to the arguments (Proof/Fold.lean). Put together: both regions multiply `x` by `sign(w1)ᵀ`,
  which is the hidden layer `h`; the first region's arrays hold, per half of the rows, the column sums of `h` and of `h²`;
  the host operations between the regions turn them into exactly `Spec.kMean`, `Spec.kInv`, `Spec.kScale` and
  `Spec.kShift`; the second region's array holds `Σⱼ sign (h · scale + shift) · W(j, n)` with `W` the padded `sign(w2)ᵀ`,
  which in the ten columns the final slice keeps is `sign (w2 (n, j))`. That is `Spec.kOut`.
-/
import proofs.«142414_j9869834846708_2_alg».proof.Proof.Fold
import proofs.«142414_j9869834846708_2_alg».proof.Proof.Spec
import proofs.«142414_j9869834846708_2_alg».proof.Proof.Stats
import proofs.«142414_j9869834846708_2_alg».proof.Proof.Apply

set_option maxRecDepth 16384

noncomputable section

namespace Cert.KernelIdeal.Glue

open Cert.KernelIdeal Cert.KernelIdeal.Gen Cert.KernelIdeal.HostRead Cert.KernelIdeal.Fold
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The regions' operands are the network's -/

/-- Multiplying by `sign(w1)ᵀ` is the hidden layer. -/
theorem mm_signT1 (x : FVec Ideal S65536x784 .f32) (w : FVec Ideal S1024x784 .f32) (b : Fin 65536) (j : Fin 1024) :
    Cert.Spec.mm x (signT1 w) b j = Cert.Spec.hid x w b j := by
  unfold Cert.Spec.mm Cert.Spec.hid
  exact Finset.sum_congr rfl fun k _ => by rw [signT1_apply]

/-- The first region's two result arrays hold, per half, the sums of the hidden layer's column and of its squares. -/
theorem sums_apply (c : Dev nD) (cc : Fin 2) (j : Fin 1024) :
    sums m ρ c (ix3 cc 0 j) = ∑ i : Fin 32, ∑ r : Fin 1024, Cert.Spec.hid (a0 m c) (a1 m c) (Cert.Spec.row cc i r) j := by
  have h := Cert.KernelIdeal.Stats.sum_arr (V2 m ρ) c cc j
  rw [show (V2 m ρ c main_arg0 : S65536x784.Idx → EReal) = a0 m c from W2_arg0 m ρ c,
    show (V2 m ρ c main_v1 : S784x1024.Idx → EReal) = signT1 (a1 m c) from W2_v1 m ρ c] at h
  rw [show sums m ρ c (ix3 cc 0 j) = _ from h]
  unfold Cert.Spec.partSum
  exact Finset.sum_congr rfl fun i _ => Finset.sum_congr rfl fun r _ => mm_signT1 _ _ _ _

theorem sumsqs_apply (c : Dev nD) (cc : Fin 2) (j : Fin 1024) :
    sumsqs m ρ c (ix3 cc 0 j) = ∑ i : Fin 32, ∑ r : Fin 1024,
      Cert.Spec.hid (a0 m c) (a1 m c) (Cert.Spec.row cc i r) j * Cert.Spec.hid (a0 m c) (a1 m c) (Cert.Spec.row cc i r) j := by
  have h := Cert.KernelIdeal.Stats.sumsq_arr (V2 m ρ) c cc j
  rw [show (V2 m ρ c main_arg0 : S65536x784.Idx → EReal) = a0 m c from W2_arg0 m ρ c,
    show (V2 m ρ c main_v1 : S784x1024.Idx → EReal) = signT1 (a1 m c) from W2_v1 m ρ c] at h
  rw [show sumsqs m ρ c (ix3 cc 0 j) = _ from h]
  unfold Cert.Spec.partSumSq
  exact Finset.sum_congr rfl fun i _ => Finset.sum_congr rfl fun r _ => by rw [mm_signT1]

/-! ## The host operations between the regions compute the kernel's affine map -/

theorem mean_eq (c : Dev nD) (j : Fin 1024) : moment (sums m ρ c) (ix1 j) = Cert.Spec.kMean (a0 m c) (a1 m c) j := by
  rw [moment_apply]
  unfold Cert.Spec.kMean Cert.Spec.kSum
  exact congrArg (Ideal.div · Cert.Spec.nB) (Finset.sum_congr rfl fun cc _ => sums_apply m ρ c cc j)

theorem meansq_eq (c : Dev nD) (j : Fin 1024) :
    moment (sumsqs m ρ c) (ix1 j) = Ideal.div (Cert.Spec.kSumSq (a0 m c) (a1 m c) j) Cert.Spec.nB := by
  rw [moment_apply]
  unfold Cert.Spec.kSumSq
  exact congrArg (Ideal.div · Cert.Spec.nB) (Finset.sum_congr rfl fun cc _ => sumsqs_apply m ρ c cc j)

theorem inv_eq (c : Dev nD) (j : Fin 1024) :
    invStd (sums m ρ c) (sumsqs m ρ c) (ix1 j) = Cert.Spec.kInv (a0 m c) (a1 m c) j := by
  rw [invStd_apply, mean_eq, meansq_eq]
  rfl

theorem scale_eq (c : Dev nD) (j : Fin 1024) :
    scaleRow (sums m ρ c) (sumsqs m ρ c) (a2 m c) (ix2 0 j) = Cert.Spec.kScale (a0 m c) (a1 m c) (a2 m c) j := by
  rw [scaleRow_apply, inv_eq]
  rfl

theorem shift_eq (c : Dev nD) (j : Fin 1024) :
    shiftRow (sums m ρ c) (sumsqs m ρ c) (a2 m c) (a3 m c) (ix2 0 j) = Cert.Spec.kShift (a0 m c) (a1 m c) (a2 m c) (a3 m c) j := by
  rw [shiftRow_apply, inv_eq, mean_eq]
  rfl

/-! ## The result -/

/-- The second region's function at the operands the program hands it, in the first ten columns, is the network's
    output with the kernel's normalisation. -/
theorem applyOut_eq (c : Dev nD) (b : Fin 65536) (n : Fin 10) :
    Cert.Spec.applyOut (a0 m c) (signT1 (a1 m c)) (scaleRow (sums m ρ c) (sumsqs m ρ c) (a2 m c))
        (shiftRow (sums m ρ c) (sumsqs m ρ c) (a2 m c) (a3 m c)) (signT2pad (a4 m c) padv) b ⟨n.val, by have := n.isLt; omega⟩
      = Cert.Spec.kOut (a0 m c) (a1 m c) (a2 m c) (a3 m c) (a4 m c) (ix2 b n) := by
  unfold Cert.Spec.applyOut Cert.Spec.kOut Cert.Spec.kAct
  refine Finset.sum_congr rfl fun j _ => ?_
  rw [mm_signT1, scale_eq, shift_eq, signT2pad_apply]

/-- The kernel program's result, as a function of its five arguments: the network's output with the kernel's
    normalisation. -/
theorem result_eq (c : Dev nD) :
    (W6 m ρ c (Proc.devRef .tc main_v27) : S65536x10.Idx → EReal)
      = Cert.Spec.kOut (a0 m c) (a1 m c) (a2 m c) (a3 m c) (a4 m c) := by
  funext i
  obtain ⟨b, n, rfl⟩ : ∃ (b : Fin 65536) (n : Fin 10), i = ix2 b n := ⟨i 0, i 1, eq_ix2 i⟩
  rw [W6_v27, first10_apply]
  have h := Cert.KernelIdeal.Apply.out_arr (V4 m ρ) c b ⟨n.val, by have := n.isLt; omega⟩
  rw [show (V4 m ρ c main_arg0 : S65536x784.Idx → EReal) = a0 m c from W4_arg0 m ρ c,
    show (V4 m ρ c main_v1 : S784x1024.Idx → EReal) = signT1 (a1 m c) from W4_v1 m ρ c,
    show (V4 m ρ c main_v21 : S1x1024.Idx → EReal) = _ from W4_v21 m ρ c,
    show (V4 m ρ c main_v25 : S1x1024.Idx → EReal) = _ from W4_v25 m ρ c,
    show (V4 m ρ c main_v5 : S1024x128.Idx → EReal) = _ from W4_v5 m ρ c] at h
  rw [show outPad m ρ c (ix2 b ⟨n.val, by have := n.isLt; omega⟩) = _ from h]
  exact applyOut_eq m ρ c b n

end Cert.KernelIdeal.Glue

end
-- ==== Proof.RefValue.lean ====
/-
  The reference network, read entry by entry.

  The reference computes, from the input `x` (65536 rows of 784 numbers), the first weights `w1` (1024 rows of 784),
  the scale `gamma` and shift `beta` (1024 numbers each) and the second weights `w2` (10 rows of 1024):

    h(b, j)   = Σₖ x(b, k) · sign (w1(j, k))                      the hidden layer, 784 terms per entry
    mean(j)   = (0 + Σ_b h(b, j)) / 65536                          the mean of column j over the 65536 rows
    var(j)    = (0 + Σ_b (h(b, j) − mean(j))²) / 65536             its biased variance, centred first
    inv(j)    = rsqrt (var(j) + ε)
    act(b, j) = ((h(b, j) − mean(j)) · inv(j)) · gamma(j) + beta(j)
    out(b, n) = Σⱼ sign (act(b, j)) · sign (w2(n, j))              1024 terms per entry

  Each line is one lemma below, in this order; every later line uses the earlier ones. The program does not write the
  formulas this way: it transposes `sign w1` and `sign w2` before multiplying, and it stretches every per-column number
  (a vector of 1024 entries) first into one row and then over all 65536 rows before it meets the matrix. So each lemma
  has two parts: an index computation (which entry of which operand an entry of the result reads: a transposition
  swaps the two coordinates, a stretched vector forgets the row), and then the arithmetic, which at the extended
  reals is the textbook operation. The leading `0 +` of the two column sums is the sum's initial value, the zero word.
-/
import proofs.«142414_j9869834846708_2_alg».proof.Proof.Gen.ReferenceIdeal.Read
import proofs.«142414_j9869834846708_2_alg».proof.Proof.Spec
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read

/-! ## The hidden layer -/

/-- Entry `(b, j)` of the first product is `Σₖ x(b, k) · sign (w1(j, k))`: the product contracts the second axis of `x`
    with the first axis of the transposed sign matrix, and entry `(k, j)` of the transpose is entry `(j, k)` of
    `sign w1`. -/
theorem hidden (x0 : FVec Ideal S65536x784 .f32) (x1 : FVec Ideal S1024x784 .f32) (b : Fin 65536) (j : Fin 1024) :
    val_main_v2 (F := Ideal) x0 x1 (ix2 b j) = Cert.Spec.hid x0 x1 b j := by
  rw [val_main_v2_apply]
  unfold Cert.Spec.hid
  refine Finset.sum_congr rfl fun k _ => ?_
  -- term k reads x at (b, k) …
  have el : lidx_main_v2 (ix2 b j) k = ix2 b k :=
    funext fun a => Fin.ext (by match a with | ⟨0, _⟩ => rfl | ⟨1, _⟩ => rfl)
  -- … and the transposed matrix at (k, j) …
  have er : ridx_main_v2 (ix2 b j) k = ix2 k j :=
    funext fun a => Fin.ext (by match a with | ⟨0, _⟩ => rfl | ⟨1, _⟩ => rfl)
  -- … which is the sign matrix at (j, k).
  have et : idx_main_v1 (ix2 k j) = ix2 j k :=
    funext fun a => Fin.ext (by match a with | ⟨0, _⟩ => rfl | ⟨1, _⟩ => rfl)
  rw [el, er, val_main_v1_apply, et, val_main_v0_apply, Ideal.hostUnary_sign_def]

/-! ## The column statistics -/

/-- The mean of column `j`: the sum over the rows `b` of `h(b, j)`, started from zero, divided by the batch size (the
    divisor is one constant stretched over the 1024 columns, so every column divides by the same word). -/
theorem mean (x0 : FVec Ideal S65536x784 .f32) (x1 : FVec Ideal S1024x784 .f32) (j : Fin 1024) :
    val_main_v5 (F := Ideal) x0 x1 (ix1 j) = Cert.Spec.rMean x0 x1 j := by
  rw [val_main_v5_apply, val_main_v3_apply, val_main_v4_apply, val_main_cst_apply, val_main_cst_0_apply]
  simp only [Ideal.hostDivf_def, Ideal.ofBits_def, Ideal.ofBits_zero_f32]
  unfold Cert.Spec.rMean Cert.Spec.nB
  -- term k of column j's sum is the product's entry (k, j)
  have e : ∀ k : Fin 65536, idx_main_v3 (ix1 j) k = ix2 k j := fun k =>
    funext fun a => Fin.ext (by match a with | ⟨0, _⟩ => rfl | ⟨1, _⟩ => rfl)
  have hs : ∑ k : Fin 65536, val_main_v2 (F := Ideal) x0 x1 (idx_main_v3 (ix1 j) k)
      = ∑ b : Fin 65536, Cert.Spec.hid x0 x1 b j :=
    Finset.sum_congr rfl fun k _ => by rw [e k, hidden]
  rw [hs]

/-- The centred entry `h(b, j) − mean(j)` that the variance squares: the mean, a vector over the columns, is laid out as
    one row and repeated down the 65536 rows, so at `(b, j)` it reads `mean(j)` whatever `b` is. -/
theorem centredForVar (x0 : FVec Ideal S65536x784 .f32) (x1 : FVec Ideal S1024x784 .f32) (b : Fin 65536) (j : Fin 1024) :
    val_main_v8 (F := Ideal) x0 x1 (ix2 b j) = Cert.Spec.hid x0 x1 b j - Cert.Spec.rMean x0 x1 j := by
  rw [val_main_v8_apply, val_main_v7_apply, val_main_v6_apply, hidden]
  have e : idx_main_v6 (idx_main_v7 (ix2 b j)) = ix1 j :=
    funext fun a => Fin.ext (by match a with | ⟨0, _⟩ => rfl)
  rw [e, mean, Ideal.subf_def]

/-- The same centred entry, computed a second time by the program for the normalisation itself. -/
theorem centredForAct (x0 : FVec Ideal S65536x784 .f32) (x1 : FVec Ideal S1024x784 .f32) (b : Fin 65536) (j : Fin 1024) :
    val_main_v15 (F := Ideal) x0 x1 (ix2 b j) = Cert.Spec.hid x0 x1 b j - Cert.Spec.rMean x0 x1 j := by
  rw [val_main_v15_apply, val_main_v14_apply, val_main_v13_apply, hidden]
  have e : idx_main_v13 (idx_main_v14 (ix2 b j)) = ix1 j :=
    funext fun a => Fin.ext (by match a with | ⟨0, _⟩ => rfl)
  rw [e, mean, Ideal.subf_def]

/-- The biased variance of column `j`: the sum over the rows of the squared centred entries, started from zero, divided
    by the batch size. -/
theorem variance (x0 : FVec Ideal S65536x784 .f32) (x1 : FVec Ideal S1024x784 .f32) (j : Fin 1024) :
    val_main_v12 (F := Ideal) x0 x1 (ix1 j) = Cert.Spec.rVar x0 x1 j := by
  rw [val_main_v12_apply, val_main_v10_apply, val_main_v11_apply, val_main_cst_1_apply, val_main_cst_2_apply]
  simp only [Ideal.hostDivf_def, Ideal.ofBits_def, Ideal.ofBits_zero_f32]
  unfold Cert.Spec.rVar Cert.Spec.nB
  -- term k of column j's sum is the squared centred entry (k, j)
  have e : ∀ k : Fin 65536, idx_main_v10 (ix1 j) k = ix2 k j := fun k =>
    funext fun a => Fin.ext (by match a with | ⟨0, _⟩ => rfl | ⟨1, _⟩ => rfl)
  have hs : ∑ k : Fin 65536, val_main_v9 (F := Ideal) x0 x1 (idx_main_v10 (ix1 j) k)
      = ∑ b : Fin 65536, (Cert.Spec.hid x0 x1 b j - Cert.Spec.rMean x0 x1 j)
          * (Cert.Spec.hid x0 x1 b j - Cert.Spec.rMean x0 x1 j) :=
    Finset.sum_congr rfl fun k _ => by rw [e k, val_main_v9_apply, centredForVar, Ideal.mulf_def]
  rw [hs]

/-- The reciprocal standard deviation of column `j`: `rsqrt (var(j) + ε)`, with `ε` one constant stretched over the
    columns. -/
theorem invStd (x0 : FVec Ideal S65536x784 .f32) (x1 : FVec Ideal S1024x784 .f32) (j : Fin 1024) :
    val_main_v18 (F := Ideal) x0 x1 (ix1 j) = Cert.Spec.rInv x0 x1 j := by
  rw [val_main_v18_apply, val_main_v17_apply, val_main_v16_apply, val_main_cst_3_apply, variance]
  simp only [Ideal.hostUnary_rsqrt_def, Ideal.addf_def, Ideal.ofBits_def]
  rfl

/-! ## The normalised entry and the output -/

/-- The normalised entry `((h(b, j) − mean(j)) · inv(j)) · gamma(j) + beta(j)`: the three per-column vectors `inv`,
    `gamma` and `beta` are each laid out as one row and repeated down the rows, so at `(b, j)` each reads its entry
    `j`. -/
theorem normalised (x0 : FVec Ideal S65536x784 .f32) (x1 : FVec Ideal S1024x784 .f32) (x2 x3 : FVec Ideal S1024 .f32)
    (b : Fin 65536) (j : Fin 1024) :
    val_main_v27 (F := Ideal) x0 x1 x2 x3 (ix2 b j) = Cert.Spec.rAct x0 x1 x2 x3 b j := by
  rw [val_main_v27_apply, val_main_v24_apply, val_main_v21_apply, centredForAct, val_main_v20_apply, val_main_v19_apply,
    val_main_v23_apply, val_main_v22_apply, val_main_v26_apply, val_main_v25_apply]
  have ei : idx_main_v19 (idx_main_v20 (ix2 b j)) = ix1 j :=
    funext fun a => Fin.ext (by match a with | ⟨0, _⟩ => rfl)
  have eg : idx_main_v22 (idx_main_v23 (ix2 b j)) = ix1 j :=
    funext fun a => Fin.ext (by match a with | ⟨0, _⟩ => rfl)
  have eb : idx_main_v25 (idx_main_v26 (ix2 b j)) = ix1 j :=
    funext fun a => Fin.ext (by match a with | ⟨0, _⟩ => rfl)
  rw [ei, eg, eb, invStd]
  simp only [Ideal.addf_def, Ideal.mulf_def]
  rfl

/-- THE REFERENCE'S VALUE. Entry `(b, n)` of the result is `Σⱼ sign (act(b, j)) · sign (w2(n, j))`: the second product
    contracts the columns of the sign of the normalised matrix with the first axis of the transposed `sign w2`, whose
    entry `(j, n)` is `sign (w2(n, j))`. -/
theorem ref_eq (x0 : FVec Ideal S65536x784 .f32) (x1 : FVec Ideal S1024x784 .f32) (x2 x3 : FVec Ideal S1024 .f32)
    (x4 : FVec Ideal S10x1024 .f32) :
    Cert.ReferenceIdeal.Read.val_main_v31 (F := Ideal) x0 x1 x2 x3 x4 = Cert.Spec.out x0 x1 x2 x3 x4 := by
  funext i
  obtain ⟨b, n, rfl⟩ : ∃ (b : Fin 65536) (n : Fin 10), i = ix2 b n := ⟨i 0, i 1, eq_ix2 i⟩
  rw [val_main_v31_apply]
  show _ = ∑ j : Fin 1024, Ideal.sign (Cert.Spec.rAct x0 x1 x2 x3 b j) * Ideal.sign (x4 (ix2 n j))
  refine Finset.sum_congr rfl fun j _ => ?_
  -- term j reads the sign of the normalised matrix at (b, j) …
  have el : lidx_main_v31 (ix2 b n) j = ix2 b j :=
    funext fun a => Fin.ext (by match a with | ⟨0, _⟩ => rfl | ⟨1, _⟩ => rfl)
  -- … and the transposed matrix at (j, n) …
  have er : ridx_main_v31 (ix2 b n) j = ix2 j n :=
    funext fun a => Fin.ext (by match a with | ⟨0, _⟩ => rfl | ⟨1, _⟩ => rfl)
  -- … which is the sign of w2 at (n, j).
  have et : idx_main_v30 (ix2 j n) = ix2 n j :=
    funext fun a => Fin.ext (by match a with | ⟨0, _⟩ => rfl | ⟨1, _⟩ => rfl)
  rw [el, er, val_main_v28_apply, normalised, val_main_v30_apply, et, val_main_v29_apply]
  simp only [Ideal.hostUnary_sign_def]

end Cert.ReferenceIdeal.RefValue

end
-- ==== Proof.Consts.lean ====
/-
  The float constants of this network, as the extended reals their bit patterns denote.

  An f32 word is a sign bit, an 8-bit exponent field `E` and a 23-bit significand field `T`. With `0 < E < 255` it
  denotes `±(2²³ + T) · 2^(E − 127 − 23)`; with `E = 255` and `T = 0` it denotes `±∞`. The three words read here are the
  batch size, the variance guard, and `+∞` (the bound a finite float stays below). Every reading of a word is done
  in this one file, so that no other file ever opens the definition of the encoding.
-/
import proofs.«142414_j9869834846708_2_alg».proof.Proof.Spec
import Idealize.ShloMosaic.PureOps.Ideal

noncomputable section

namespace Cert.Consts

open Idealize.ShloMosaic

/-- The batch-size word denotes the real 65536: sign `+`, exponent field 143, significand field 0, that is
    `2²³ · 2^(143 − 127 − 23) = 2¹⁶`. -/
theorem nB_eq : Cert.Spec.nB = ((65536 : ℝ) : EReal) := by
  simp [Cert.Spec.nB, Ideal.ofBits, Ideal.ieee, -EReal.coe_mul]
  norm_num

/-- The guard `ε` denotes a positive real: sign `+`, exponent field 110, significand field 2606508, that is
    `(2²³ + 2606508) · 2^(110 − 127 − 23) = 10995116 · 2⁻⁴⁰` (about `1e-5`). Only its sign is ever used. -/
theorem eps_pos : ∃ e : ℝ, 0 < e ∧ Cert.Spec.eps = (e : EReal) :=
  ⟨10995116 * (2 : ℝ) ^ (-40 : ℤ), by positivity,
    by simp [Cert.Spec.eps, Ideal.ofBits, Ideal.ieee, -EReal.coe_mul]⟩

/-- The word with exponent field 255 and significand field 0 denotes `+∞`. -/
theorem ofBits_inf : Ideal.ofBits .f32 0x7F800000#32 = ⊤ := by
  simp [Ideal.ofBits, Ideal.ieee]

end Cert.Consts

end
-- ==== Proof.Algebra.lean ====
/-
  The two normalisations are one.

  Fix a column `j` and write `h(b)` for the hidden layer's entry `(b, j)`, `N = 65536` for the number of rows,
  `G`, `B` for `gamma(j)`, `beta(j)`. The reference centres first:

    mean = (Σ_b h(b)) / N,    var = (Σ_b (h(b) − mean)²) / N,    act(b) = ((h(b) − mean) · r) · G + B,

  with `r = rsqrt (var + ε)`. The kernel takes the two moments `Σ h` and `Σ h²`, each summed half by half and block by
  block, and applies one affine map:

    mean = (Σ h) / N,    var = max ((Σ h²) / N − mean², 0),    act(b) = h(b) · (G · r) + (B − (mean · G) · r).

  Over the real numbers these agree, for three reasons, each a section below.
  (1) Cutting the 65536 rows into 2 halves of 32 blocks of 1024 rows only re-orders a finite sum.
  (2) `Σ (h − mean)² = Σ h² − 2 · mean · Σ h + N · mean² = Σ h² − N · mean²` because `Σ h = N · mean`; so the centred
      variance is `(Σ h²) / N − mean²`, and being a mean of squares it is not negative, so the kernel's `max (·, 0)` does
      nothing.
  (3) `(h − mean) · r · G + B = h · (G · r) + (B − (mean · G) · r)` is distributivity.
  Distributivity and cancellation FAIL at the infinities of the extended reals, so the argument needs every number
  involved to be a real. That is where the hypotheses enter: the inputs `x`, `gamma`, `beta` are real; a sign is always
  `−1`, `0` or `1`, so the hidden layer is real whatever `w1` is; `N` is the real 65536, so dividing by it is multiplying
  by the real `1 / 65536`; and `var + ε` is a positive real, where `rsqrt` is the real `1 / √(var + ε)`. (That the two
  constant words denote the real 65536 and a positive real is read off their bits in Proof/Consts.lean.)
-/
import proofs.«142414_j9869834846708_2_alg».proof.Proof.Spec
import proofs.«142414_j9869834846708_2_alg».proof.Proof.Consts
import Idealize.ShloMosaic.PureOps.Ideal.Laws

noncomputable section

namespace Cert.Algebra

open Idealize.ShloMosaic Idealize.ShloMosaic.ValueIdx Cert.Spec Cert.Consts

/-! ## (1) The rows in halves and blocks -/

/-- A row number `b < 65536` is `(c · 32 + i) · 1024 + r` for exactly one half `c < 2`, block `i < 32` and row in the
    block `r < 1024`: `r` is the remainder of `b` by 1024, `i` the remainder of the quotient by 32, `c` what is left. -/
def rowEquiv : Fin 2 × Fin 32 × Fin 1024 ≃ Fin 65536 where
  toFun p := row p.1 p.2.1 p.2.2
  invFun b := (⟨b.val / 32768, by have := b.isLt; omega⟩, ⟨b.val / 1024 % 32, by omega⟩, ⟨b.val % 1024, by omega⟩)
  left_inv := by
    rintro ⟨c, i, r⟩
    have := c.isLt; have := i.isLt; have := r.isLt
    refine Prod.ext (Fin.ext ?_) (Prod.ext (Fin.ext ?_) (Fin.ext ?_)) <;> simp only [row] <;> omega
  right_inv := by
    intro b
    have := b.isLt
    refine Fin.ext ?_
    simp only [row]
    omega

/-- Summing over the halves, then the blocks of a half, then the rows of a block is summing over all rows, each once.
    Only commutativity and associativity of the addition are used, so this holds for extended reals as it stands. -/
theorem sum_rows {M : Type*} [AddCommMonoid M] (f : Fin 65536 → M) :
    ∑ c : Fin 2, ∑ i : Fin 32, ∑ r : Fin 1024, f (row c i r) = ∑ b : Fin 65536, f b := by
  rw [← Equiv.sum_comp rowEquiv f, Fintype.sum_prod_type]
  refine Finset.sum_congr rfl fun c _ => ?_
  rw [Fintype.sum_prod_type]
  rfl

/-! ## (2) The variance from the two moments, over the reals -/

/-- For real numbers `H b` indexed by a finite set of `N ≠ 0` elements, with `mean = (Σ H) / N`: the mean of the squared
    deviations is the mean of the squares minus the squared mean. (Division by `N` is written as multiplication by
    `1 / N`, the form in which the extended reals' division by a real arrives.) -/
theorem var_centred_eq_moments {ι : Type*} [Fintype ι] (H : ι → ℝ) (N : ℝ) (hcard : (Fintype.card ι : ℝ) = N)
    (hN : N ≠ 0) :
    (∑ b, (H b - (∑ b, H b) * (1 / N)) * (H b - (∑ b, H b) * (1 / N))) * (1 / N)
      = (∑ b, H b * H b) * (1 / N) - ((∑ b, H b) * (1 / N)) * ((∑ b, H b) * (1 / N)) := by
  generalize hS : ∑ b, H b = S
  generalize hm : S * (1 / N) = m
  -- Σ (H − m)² = Σ H² − 2 m Σ H + N m²: square each term, sum term by term; the constant m² is summed N times
  have expand : ∑ b, (H b - m) * (H b - m) = (∑ b, H b * H b) - 2 * m * S + N * (m * m) := by
    have sq : ∀ b, (H b - m) * (H b - m) = H b * H b - 2 * m * H b + m * m := fun b => by ring
    simp only [sq, Finset.sum_add_distrib, Finset.sum_sub_distrib, ← Finset.mul_sum, Finset.sum_const,
      Finset.card_univ, nsmul_eq_mul, hcard, hS]
    ring
  -- with m = S / N the middle term is −2 N m² and the whole is Σ H² − N m²
  rw [expand, ← hm]
  field_simp
  ring

/-- A mean of squares is not negative. -/
theorem var_centred_nonneg {ι : Type*} [Fintype ι] (H : ι → ℝ) (m N : ℝ) (hN : 0 < N) :
    0 ≤ (∑ b, (H b - m) * (H b - m)) * (1 / N) :=
  mul_nonneg (Finset.sum_nonneg fun b _ => mul_self_nonneg _) (by positivity)

/-! ## Real numbers inside the extended reals -/

/-- The inclusion of the reals commutes with finite sums (by induction on the index set, from the two-term case). -/
theorem coe_sum {ι : Type*} (s : Finset ι) (f : ι → ℝ) :
    ∑ i ∈ s, (f i : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A sign is `−1`, `0` or `1`: a real, even at the infinities. -/
theorem sign_real (y : EReal) : ∃ s : ℝ, Ideal.sign y = (s : EReal) := by
  induction y using EReal.rec with
  | bot => exact ⟨-1, by rw [Ideal.sign_bot, EReal.coe_neg, EReal.coe_one]⟩
  | coe r => exact ⟨SignType.sign r, Ideal.sign_coe r⟩
  | top => exact ⟨1, by rw [Ideal.sign_top, EReal.coe_one]⟩

/-- With `x` real, every entry of the hidden layer is a real: a finite sum of products of a real with a sign. Nothing
    is asked of `w1`. -/
theorem hid_real (x : FVec Ideal SX .f32) (w1 : FVec Ideal SW1 .f32) (hx : IsReal x) (b : Fin 65536) (j : Fin 1024) :
    ∃ h : ℝ, hid x w1 b j = (h : EReal) := by
  have hx' : ∀ i, ∃ r : ℝ, x i = (r : EReal) := hx
  choose xr hxr using hx'
  choose sg hsg using sign_real
  refine ⟨∑ k : Fin 784, xr (ix2 b k) * sg (w1 (ix2 j k)), ?_⟩
  unfold hid
  rw [← coe_sum]
  refine Finset.sum_congr rfl fun k _ => ?_
  rw [hxr, hsg, EReal.coe_mul]

/-! ## The column statistics of both programs, as real numbers -/

/-- For a column `j` of a real input: the hidden entries are reals `H b`, both programs' means are ONE real `m`, and both
    programs' `rsqrt (var + ε)` are ONE real `ρ`. This is where the three facts of the header meet: the kernel's triple
    sums are the sums over all rows; its variance `max (Σ H² / N − m², 0)` is the reference's `Σ (H − m)² / N`; and that
    number plus `ε` is positive, so `rsqrt` is the real `1 / √·` on it. -/
theorem column_stats (x : FVec Ideal SX .f32) (w1 : FVec Ideal SW1 .f32) (hx : IsReal x) (j : Fin 1024) :
    ∃ (H : Fin 65536 → ℝ) (m ρ : ℝ), (∀ b, hid x w1 b j = (H b : EReal)) ∧
      kMean x w1 j = (m : EReal) ∧ rMean x w1 j = (m : EReal) ∧
      kInv x w1 j = (ρ : EReal) ∧ rInv x w1 j = (ρ : EReal) := by
  choose H hH using fun b => hid_real x w1 hx b j
  have hN0 : (65536 : ℝ) ≠ 0 := by norm_num
  have hNpos : (0 : ℝ) < 65536 := by norm_num
  have hcard : (Fintype.card (Fin 65536) : ℝ) = 65536 := by simp [Fintype.card_fin]
  -- the kernel's two moments are sums over all rows, of reals
  have hsum : kSum x w1 j = ((∑ b, H b : ℝ) : EReal) := by
    have h1 : kSum x w1 j = ∑ b : Fin 65536, hid x w1 b j := sum_rows fun b => hid x w1 b j
    rw [h1, ← coe_sum]
    exact Finset.sum_congr rfl fun b _ => hH b
  have hsq : kSumSq x w1 j = ((∑ b, H b * H b : ℝ) : EReal) := by
    have h1 : kSumSq x w1 j = ∑ b : Fin 65536, hid x w1 b j * hid x w1 b j :=
      sum_rows fun b => hid x w1 b j * hid x w1 b j
    rw [h1, ← coe_sum]
    exact Finset.sum_congr rfl fun b _ => by rw [hH b, EReal.coe_mul]
  -- the two means: dividing by the real N is multiplying by 1 / N
  have hkm : kMean x w1 j = (((∑ b, H b) * (1 / 65536) : ℝ) : EReal) := by
    unfold kMean
    rw [hsum, nB_eq, Ideal.div_coe hN0, ← EReal.coe_mul]
  have hrm : rMean x w1 j = (((∑ b, H b) * (1 / 65536) : ℝ) : EReal) := by
    have h1 : ∑ b : Fin 65536, hid x w1 b j = ((∑ b, H b : ℝ) : EReal) := by
      rw [← coe_sum]
      exact Finset.sum_congr rfl fun b _ => hH b
    unfold rMean
    rw [h1, zero_add, nB_eq, Ideal.div_coe hN0, ← EReal.coe_mul]
  generalize hm : (∑ b, H b) * (1 / 65536) = m at hkm hrm
  -- the reference's variance, a real
  have hrv : rVar x w1 j = (((∑ b, (H b - m) * (H b - m)) * (1 / 65536) : ℝ) : EReal) := by
    have h1 : ∑ b : Fin 65536, (hid x w1 b j - rMean x w1 j) * (hid x w1 b j - rMean x w1 j)
        = ((∑ b, (H b - m) * (H b - m) : ℝ) : EReal) := by
      rw [← coe_sum]
      exact Finset.sum_congr rfl fun b _ => by rw [hH b, hrm, ← EReal.coe_sub, ← EReal.coe_mul]
    unfold rVar
    rw [h1, zero_add, nB_eq, Ideal.div_coe hN0, ← EReal.coe_mul]
  -- the kernel's variance is the same real: the moments give the centred form, which is not negative
  have hkv : kVar x w1 j = (((∑ b, (H b - m) * (H b - m)) * (1 / 65536) : ℝ) : EReal) := by
    have hmom := var_centred_eq_moments H 65536 hcard hN0
    rw [hm] at hmom
    unfold kVar
    rw [hsq, hkm, nB_eq, Ideal.div_coe hN0, ← EReal.coe_mul, ← EReal.coe_mul, ← EReal.coe_sub, ← hmom]
    exact max_eq_left (EReal.coe_nonneg.mpr (var_centred_nonneg H m 65536 hNpos))
  generalize hv : (∑ b, (H b - m) * (H b - m)) * (1 / 65536) = v at hrv hkv
  have hv0 : 0 ≤ v := hv ▸ var_centred_nonneg H m 65536 hNpos
  -- var + ε is a positive real, where rsqrt is 1 / √·
  obtain ⟨e, he, hee⟩ := eps_pos
  have hpos : 0 < v + e := add_pos_of_nonneg_of_pos hv0 he
  have hrs : Ideal.rsqrt (((v : ℝ) : EReal) + eps) = (((Real.sqrt (v + e))⁻¹ : ℝ) : EReal) := by
    rw [hee, ← EReal.coe_add, Ideal.rsqrt_coe, if_neg (not_lt.mpr hpos.le), if_neg hpos.ne']
  refine ⟨H, m, (Real.sqrt (v + e))⁻¹, hH, hkm, hrm, ?_, ?_⟩
  · unfold kInv; rw [hkv, hrs]
  · unfold rInv; rw [hrv, hrs]

/-! ## (3) The affine map -/

/-- THE TWO NORMALISED ENTRIES ARE EQUAL. With every ingredient a real — the entry `h`, the common mean `m`, the common
    `ρ = rsqrt (var + ε)`, `G = gamma(j)`, `B = beta(j)` — the kernel's `h · (G · ρ) + (B − (m · G) · ρ)` and the
    reference's `((h − m) · ρ) · G + B` are one polynomial identity. -/
theorem kAct_eq_rAct (x : FVec Ideal SX .f32) (w1 : FVec Ideal SW1 .f32) (g bt : FVec Ideal SVec .f32)
    (hx : IsReal x) (hg : IsReal g) (hb : IsReal bt) (b : Fin 65536) (j : Fin 1024) :
    kAct x w1 g bt b j = rAct x w1 g bt b j := by
  obtain ⟨H, m, ρ, hH, hkm, hrm, hki, hri⟩ := column_stats x w1 hx j
  obtain ⟨G, hG⟩ := hg (ix1 j)
  obtain ⟨B, hB⟩ := hb (ix1 j)
  unfold kAct rAct kScale kShift
  rw [hH, hkm, hrm, hki, hri, hG, hB]
  simp only [← EReal.coe_mul, ← EReal.coe_sub, ← EReal.coe_add]
  exact congrArg Real.toEReal (by ring)

/-- So the two outputs are equal: entry by entry the same sum of the same signs. -/
theorem kOut_eq_out (x : FVec Ideal SX .f32) (w1 : FVec Ideal SW1 .f32) (g bt : FVec Ideal SVec .f32)
    (w2 : FVec Ideal SW2 .f32) (hx : IsReal x) (hg : IsReal g) (hb : IsReal bt) :
    kOut x w1 g bt w2 = out x w1 g bt w2 := by
  funext i
  unfold kOut out
  exact Finset.sum_congr rfl fun j _ => by rw [kAct_eq_rAct x w1 g bt hx hg hb (i 0) j]

end Cert.Algebra

end
-- ==== Proof.Finite.lean ====
/-
  What the precondition gives: every entry of every argument is a real number.

  The precondition is one bit: the conjunction, over the five arguments, of "every entry's absolute value is below
  +∞". The conjunction of bits is 1 only if each is; a reduction by `and` into a single bit is 1 only if every entry
  is; and an extended real whose absolute value `max x (-x)` is below `+∞` is neither infinity, hence a real.
-/
import proofs.«142414_j9869834846708_2_alg».proof.Pre_finite_inputs
import proofs.«142414_j9869834846708_2_alg».proof.Proof.Gen.Pre_finite_inputs
import proofs.«142414_j9869834846708_2_alg».proof.Proof.Spec
import proofs.«142414_j9869834846708_2_alg».proof.Proof.Consts
import Idealize.ShloMosaic.Lib.ReduceAll
import Idealize.ShloMosaic.Lib.Affine
import Idealize.ShloMosaic.Lib.ValueIdx
import Idealize.ShloMosaic.PureOps.Ideal.Laws

noncomputable section

namespace Cert.Finite

open Cert.Pre_finite_inputs Cert.Pre_finite_inputs.Gen Idealize.ShloMosaic Idealize.ShloMosaic.ValueIdx

/-- A rank-zero array has one index. -/
instance : Subsingleton S_.Idx := ⟨fun a b => funext fun d => d.elim0⟩

/-- An extended real whose absolute value is below `+∞` is a real: `max ⊥ (-⊥)` and `max ⊤ (-⊤)` are both `⊤`. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- One argument's check: if the `and` over all entries of "`|x| < +∞`" is 1, every entry of `x` is a real. -/
theorem isReal_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant (F := Ideal) S_ .f32 0x7F800000#32)))
        (constantI S_ 1 1#1) hr hu ix0 = 1#1) : Cert.Spec.IsReal x := fun i => by
  have hi := Host.reduce_andi_all _ _ hr hu ix0 h i
  refine real_of_abs_lt_top (x i) ?_
  rw [← Cert.Consts.ofBits_inf]
  exact hi

/-- The precondition's bit is 1 only if every entry of each of the five arguments is a real. -/
theorem reals (x0 : FVec Ideal S65536x784 .f32) (x1 : FVec Ideal S1024x784 .f32) (x2 x3 : FVec Ideal S1024 .f32)
    (x4 : FVec Ideal S10x1024 .f32) (h : fn (F := Ideal) x0 x1 x2 x3 x4 = fun _ => 1#1) :
    Cert.Spec.IsReal x0 ∧ Cert.Spec.IsReal x1 ∧ Cert.Spec.IsReal x2 ∧ Cert.Spec.IsReal x3 ∧ Cert.Spec.IsReal x4 := by
  have h0 := congrFun h ix0
  dsimp only [fn, fn_part1] at h0
  obtain ⟨h0123, h4⟩ := IntOp.andi_eq_one.mp h0
  obtain ⟨h012, h3⟩ := IntOp.andi_eq_one.mp h0123
  obtain ⟨h01, h2⟩ := IntOp.andi_eq_one.mp h012
  obtain ⟨h0', h1⟩ := IntOp.andi_eq_one.mp h01
  exact ⟨isReal_of_all x0 _ _ _ h0', isReal_of_all x1 _ _ _ h1, isReal_of_all x2 _ _ _ h2, isReal_of_all x3 _ _ _ h3,
    isReal_of_all x4 _ _ _ h4⟩

end Cert.Finite

end
-- ==== Proof.lean ====
/-
  A binarised two-layer perceptron with batch normalisation, as a two-pass TPU kernel against its jnp reference:
  `h = x · sign(w1)ᵀ`, each column of `h` normalised over the 65536 rows (batch mean, biased variance, `rsqrt (var + ε)`,
  scale `gamma`, shift `beta`), `a = sign` of the normalised entry, `out = a · sign(w2)ᵀ`.

  The kernel never stores `h`. Its first pass accumulates, per half of the rows, the column sums `Σ h` and `Σ h²` block
  by block; host operations add the two halves, form `mean = Σh / N`, `var = max (Σh² / N - mean², 0)`, and fold the
  normalisation into one affine map `scale = gamma · rsqrt (var + ε)`, `shift = beta - mean · gamma · rsqrt (var + ε)`; its
  second pass recomputes `h` block by block, applies `h · scale + shift`, takes the sign and multiplies by `sign(w2)ᵀ`
  padded to 128 columns, of which a final slice keeps 10. The reference centres first: `var = Σ (h - mean)² / N`,
  `((h - mean) · rsqrt (var + ε)) · gamma + beta`.

  Over the extended reals the two agree when the inputs are finite: every `h` is then a real; the sum over
  (half, block, row) is the sum over rows; `Σ (h - mean)² / N = Σ h² / N - mean²`, a mean of squares, so the `max` with 0 does
  nothing; `var + ε` is a positive real, whose `rsqrt` is a real `ρ`; and `(h - mean) · ρ · gamma + beta
  = h · (gamma · ρ) + (beta - mean · gamma · ρ)` (Proof/Algebra.lean). The kernel's `sign` — 1.0 with the operand's sign where
  the operand is not zero, the operand itself at zero — is the order's sign, `-1`, `0` or `1`, as the host's is. So
  the two normalised entries are the same real, their signs agree, and both outputs are `Σⱼ sign (act(b, j)) · sign (w2(n, j))`.

  The modules: Spec (both sides named), Stats and Apply (what each kernel region leaves in its result arrays, as a function
  of the arrays it is handed), HostRead and Fold (the host operations around the regions, and every buffer a later
  segment reads walked back to the arguments), Glue (the kernel program's result is `Spec.kOut` of its arguments),
  KernelRun (the kernel program's run with its result named), RefValue (the reference's result is `Spec.out`), Consts,
  Algebra (`kOut = out` on real inputs), Finite (the precondition makes the inputs real).
-/
import proofs.«142414_j9869834846708_2_alg».proof.Defs
import proofs.«142414_j9869834846708_2_alg».proof.Proof.Gen.Kernel
import proofs.«142414_j9869834846708_2_alg».proof.Proof.Gen.Kernel.Skeleton
import proofs.«142414_j9869834846708_2_alg».proof.Proof.Gen.Kernel.Launch
import proofs.«142414_j9869834846708_2_alg».proof.Proof.Gen.Kernel.Points
import proofs.«142414_j9869834846708_2_alg».proof.Proof.Gen.Kernel.Frame
import proofs.«142414_j9869834846708_2_alg».proof.Proof.Gen.KernelIdeal
import proofs.«142414_j9869834846708_2_alg».proof.Proof.Gen.KernelIdeal.Skeleton
import proofs.«142414_j9869834846708_2_alg».proof.Proof.Gen.KernelIdeal.Launch
import proofs.«142414_j9869834846708_2_alg».proof.Proof.Gen.KernelIdeal.Points
import proofs.«142414_j9869834846708_2_alg».proof.Proof.Gen.KernelIdeal.Frame
import proofs.«142414_j9869834846708_2_alg».proof.Proof.Gen.ReferenceIdeal
import proofs.«142414_j9869834846708_2_alg».proof.Proof.Gen.Pre_finite_inputs
import proofs.«142414_j9869834846708_2_alg».proof.Proof.Gen.ReferenceIdeal.Run
import proofs.«142414_j9869834846708_2_alg».proof.Proof.Gen.ReferenceIdeal.Read
import proofs.«142414_j9869834846708_2_alg».proof.Proof.KernelRun
import proofs.«142414_j9869834846708_2_alg».proof.Proof.Glue
import proofs.«142414_j9869834846708_2_alg».proof.Proof.RefValue
import proofs.«142414_j9869834846708_2_alg».proof.Proof.Algebra
import proofs.«142414_j9869834846708_2_alg».proof.Proof.Finite
import Idealize.ShloMosaic.Adequacy
import Idealize.ShloMosaic.Init

noncomputable section

namespace Cert.Proof

open Idealize.ShloMosaic Idealize.SL.Sem

/-- The three programs run to the end without a fault and leave their arguments alone: the two kernel programs by the
    generated frame over their six segments, the reference by its run with the result forgotten. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealisation: the word "1.0 with `v`'s sign bit" read as `-1` below zero and `1` otherwise. -/
theorem preserves : Cert.preserves_Kernel_KernelIdeal :=
  IdealRules.sign_bit.statement Cert.KernelIdeal.S1024x1024 .f32

/-- From memories that agree on finite arguments both programs end with the network's output `Spec.out` of the
    arguments: the kernel program's result is `Spec.kOut` (its own normalisation), which is `Spec.out` on real inputs;
    the reference's result is `Spec.out` outright. -/
theorem algebraic : Cert.algebraic_KernelIdeal_ReferenceIdeal := by
  intro m ρ m' ρ' hpre hagree
  refine ⟨fun c => Cert.Spec.out (Cert.KernelIdeal.Fold.a0 m c) (Cert.KernelIdeal.Fold.a1 m c) (Cert.KernelIdeal.Fold.a2 m c)
    (Cert.KernelIdeal.Fold.a3 m c) (Cert.KernelIdeal.Fold.a4 m c), ?_, ?_⟩
  · refine (θ_run Cert.KernelIdeal.defs _ _).mono (fun r h c => ⟨(h c).1.trans ?_, (h c).2⟩)
      (Cert.KernelIdeal.KernelRun.run_result (F := Ideal) m ρ)
    obtain ⟨hx, -, hg, hb, -⟩ := Cert.Finite.reals _ _ _ _ _ (hpre c)
    exact (Cert.KernelIdeal.Glue.result_eq m ρ c).trans (Cert.Algebra.kOut_eq_out _ _ _ _ _ hx hg hb)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v31_eq _ _ _ _ _).trans (Cert.ReferenceIdeal.RefValue.ref_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
